-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128x40 .f32) (main_arg9 : FVec F S40 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x40 .f32) (main_arg9 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x40 .f32) (main_arg9 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S10000x128 : Shape := ⟨2, ![10000, 128]⟩
abbrev S850000x128 : Shape := ⟨2, ![850000, 128]⟩
abbrev S1x128 : Shape := ⟨2, ![1, 128]⟩
abbrev S50000x40 : Shape := ⟨2, ![50000, 40]⟩
abbrev S10000x40 : Shape := ⟨2, ![10000, 40]⟩
abbrev S1x40 : Shape := ⟨2, ![1, 40]⟩

abbrev nBuf : Space → Nat
  | .hbm => 124
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000, .i32⟩
  | .hbm, ⟨15, _⟩ => ⟨S850000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .f32⟩
  | .hbm, ⟨52, _⟩ => ⟨S850000x1, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S850000x1, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x128, .f32⟩
  | .hbm, ⟨85, _⟩ => ⟨S850000x128, .f32⟩
  | .hbm, ⟨86, _⟩ => ⟨S850000x128, .f32⟩
  | .hbm, ⟨87, _⟩ => ⟨S_, .f32⟩
  | .hbm, ⟨88, _⟩ => ⟨S50000x128, .f32⟩
  | .hbm, ⟨89, _⟩ => ⟨S850000x1, .i32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | .hbm, ⟨97, _⟩ => ⟨S50000x128, .f32⟩
  | .hbm, ⟨98, _⟩ => ⟨S850000x1, .f32⟩
  | .hbm, ⟨99, _⟩ => ⟨S_, .i32⟩
  | .hbm, ⟨100, _⟩ => ⟨S850000, .i32⟩
  | .hbm, ⟨101, _⟩ => ⟨S850000, .i1⟩
  | .hbm, ⟨102, _⟩ => ⟨S_, .i32⟩
  | .hbm, ⟨103, _⟩ => ⟨S850000, .i32⟩
  | .hbm, ⟨104, _⟩ => ⟨S850000, .i32⟩
  | .hbm, ⟨105, _⟩ => ⟨S850000, .i32⟩
  | .hbm, ⟨106, _⟩ => ⟨S850000x1, .i32⟩
  | .hbm, ⟨107, _⟩ => ⟨S850000x128, .f32⟩
  | .hbm, ⟨108, _⟩ => ⟨S850000x128, .f32⟩
  | .hbm, ⟨109, _⟩ => ⟨S850000x128, .f32⟩
  | .hbm, ⟨110, _⟩ => ⟨S_, .f32⟩
  | .hbm, ⟨111, _⟩ => ⟨S50000x128, .f32⟩
  | .hbm, ⟨112, _⟩ => ⟨S850000x1, .i32⟩
  | .hbm, ⟨113, _⟩ => ⟨S50000x128, .f32⟩
  | .hbm, ⟨114, _⟩ => ⟨S1x128, .f32⟩
  | .hbm, ⟨115, _⟩ => ⟨S50000x128, .f32⟩
  | .hbm, ⟨116, _⟩ => ⟨S50000x128, .f32⟩
  | .hbm, ⟨117, _⟩ => ⟨S_, .f32⟩
  | .hbm, ⟨118, _⟩ => ⟨S50000x128, .f32⟩
  | .hbm, ⟨119, _⟩ => ⟨S50000x128, .f32⟩
  | .hbm, ⟨120, _⟩ => ⟨S50000x40, .f32⟩
  | .hbm, ⟨121, _⟩ => ⟨S1x40, .f32⟩
  | .hbm, ⟨122, _⟩ => ⟨S50000x40, .f32⟩
  | .hbm, ⟨123, _⟩ => ⟨S50000x40, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S128x40, .f32⟩
  | .local _ .vmem, ⟨18, _⟩ => ⟨S10000x40, .f32⟩
  | .local _ .vmem, ⟨19, _⟩ => ⟨S10000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call1_cst : Ref sig .tc := ⟨.hbm, 71, rfl⟩
abbrev main_call1_v0 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_9 : Ref sig .tc := ⟨.hbm, 76, rfl⟩
abbrev main_v51 : Ref sig .tc := ⟨.hbm, 77, rfl⟩
abbrev main_v52 : Ref sig .tc := ⟨.hbm, 78, rfl⟩
abbrev main_c_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_call2_cst : Ref sig .tc := ⟨.hbm, 94, rfl⟩
abbrev main_call2_v0 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_12 : Ref sig .tc := ⟨.hbm, 99, rfl⟩
abbrev main_v69 : Ref sig .tc := ⟨.hbm, 100, rfl⟩
abbrev main_v70 : Ref sig .tc := ⟨.hbm, 101, rfl⟩
abbrev main_c_13 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_14 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_call3_cst : Ref sig .tc := ⟨.hbm, 117, rfl⟩
abbrev main_call3_v0 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S10000x128_S10000x128 : S10000x128.ShapeCasts S10000x128
  inb_S128x40_S128x40_0_0 : ∀ a, (![0, 0] : Fin 2 → Nat) a + S128x40.size a ≤ S128x40.size a
  h_S128x40 : 0 < S128x40.numel
  inb_S10000x40_S10000x40_0_0 : ∀ a, (![0, 0] : Fin 2 → Nat) a + S10000x40.size a ≤ S10000x40.size a
  h_S10000x40 : 0 < S10000x40.numel
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x128_S128x40_S10000x40_1_0_0_1_n_n_wf : DotDims.WF S10000x128 S128x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S50000x128.size a
  hwx2_2 : ∀ i : grid2.Coords, EltTy.bits .f32 = 32 ∨ (Rect.block (s := S50000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x40.size a ≤ S128x40.size a
  hwx3_1 : ∀ i : grid3.Coords, EltTy.bits .f32 = 32 ∨ (Rect.block (s := S128x40) S128x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x40.size a ≤ S50000x40.size a
  hwx3_2 : ∀ i : grid3.Coords, EltTy.bits .f32 = 32 ∨ (Rect.block (s := S50000x40) S10000x40.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v84) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v85) S10000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S1x40 : Shape := ⟨2, ![1, 40]⟩

abbrev nBuf : Space → Nat
  | .hbm => 124
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000, .i32⟩
  | .hbm, ⟨15, _⟩ => ⟨S850000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .f32⟩
  | .hbm, ⟨52, _⟩ => ⟨S850000x1, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S850000x1, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x128, .f32⟩
  | .hbm, ⟨85, _⟩ => ⟨S850000x128, .f32⟩
  | .hbm, ⟨86, _⟩ => ⟨S850000x128, .f32⟩
  | .hbm, ⟨87, _⟩ => ⟨S_, .f32⟩
  | .hbm, ⟨88, _⟩ => ⟨S50000x128, .f32⟩
  | .hbm, ⟨89, _⟩ => ⟨S850000x1, .i32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | .hbm, ⟨97, _⟩ => ⟨S50000x128, .f32⟩
  | .hbm, ⟨98, _⟩ => ⟨S850000x1, .f32⟩
  | .hbm, ⟨99, _⟩ => ⟨S_, .i32⟩
  | .hbm, ⟨100, _⟩ => ⟨S850000, .i32⟩
  | .hbm, ⟨101, _⟩ => ⟨S850000, .i1⟩
  | .hbm, ⟨102, _⟩ => ⟨S_, .i32⟩
  | .hbm, ⟨103, _⟩ => ⟨S850000, .i32⟩
  | .hbm, ⟨104, _⟩ => ⟨S850000, .i32⟩
  | .hbm, ⟨105, _⟩ => ⟨S850000, .i32⟩
  | .hbm, ⟨106, _⟩ => ⟨S850000x1, .i32⟩
  | .hbm, ⟨107, _⟩ => ⟨S850000x128, .f32⟩
  | .hbm, ⟨108, _⟩ => ⟨S850000x128, .f32⟩
  | .hbm, ⟨109, _⟩ => ⟨S850000x128, .f32⟩
  | .hbm, ⟨110, _⟩ => ⟨S_, .f32⟩
  | .hbm, ⟨111, _⟩ => ⟨S50000x128, .f32⟩
  | .hbm, ⟨112, _⟩ => ⟨S850000x1, .i32⟩
  | .hbm, ⟨113, _⟩ => ⟨S50000x128, .f32⟩
  | .hbm, ⟨114, _⟩ => ⟨S1x128, .f32⟩
  | .hbm, ⟨115, _⟩ => ⟨S50000x128, .f32⟩
  | .hbm, ⟨116, _⟩ => ⟨S50000x128, .f32⟩
  | .hbm, ⟨117, _⟩ => ⟨S_, .f32⟩
  | .hbm, ⟨118, _⟩ => ⟨S50000x128, .f32⟩
  | .hbm, ⟨119, _⟩ => ⟨S50000x128, .f32⟩
  | .hbm, ⟨120, _⟩ => ⟨S50000x40, .f32⟩
  | .hbm, ⟨121, _⟩ => ⟨S1x40, .f32⟩
  | .hbm, ⟨122, _⟩ => ⟨S50000x40, .f32⟩
  | .hbm, ⟨123, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call1_cst : Ref sig .tc := ⟨.hbm, 71, rfl⟩
abbrev main_call1_v0 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_9 : Ref sig .tc := ⟨.hbm, 76, rfl⟩
abbrev main_v51 : Ref sig .tc := ⟨.hbm, 77, rfl⟩
abbrev main_v52 : Ref sig .tc := ⟨.hbm, 78, rfl⟩
abbrev main_c_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_call2_cst : Ref sig .tc := ⟨.hbm, 94, rfl⟩
abbrev main_call2_v0 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_12 : Ref sig .tc := ⟨.hbm, 99, rfl⟩
abbrev main_v69 : Ref sig .tc := ⟨.hbm, 100, rfl⟩
abbrev main_v70 : Ref sig .tc := ⟨.hbm, 101, rfl⟩
abbrev main_c_13 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_14 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_call3_cst : Ref sig .tc := ⟨.hbm, 117, rfl⟩
abbrev main_call3_v0 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KernelRun.lean ====
/-
  The idealized kernel program's run with its RESULT named.

  The program is four pallas_call regions among stretches of host operations. Its buffer contents at each boundary
  are a fold from the launch memory: a stretch of host operations applies its operations in order, a region leaves
  its output array at what the grid points' write-backs leave and every other buffer as it found it. Every weakly
  fair execution terminates, nothing faulting, in a state whose unscoped buffers hold the LAST boundary's contents;
  read at the program's result buffer this names the result, and read at an argument's buffer it gives back the
  launch contents, no operation and no region writing an argument.
-/
import proofs.«174328_j51780125721472_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with its result buffer at the last boundary's contents and
    its ten argument arrays as launched. -/
theorem run_main : θ_run defs (onTc (τ := τ) (main (F := F))) ⟨m, fun _ => 0, ρ⟩ (fun r => ∀ c : Dev nD,
      r.2.mem ((c.tc : Thread nD τ).loc main_v88) = W14 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v88 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c)⟩)

end Cert.KernelIdeal.Named

end
-- ==== Proof.Stages.lean ====
/-
  The graph-convolution network as a composition of whole-array functions.

  Both programs compute, from the node features `x`, the edge list `ei` (two rows of 800000 node numbers) and four
  weight matrices with their biases:
    * the endpoint lists `srcOf ei`, `dstOf ei`: a row of the edge list followed by every node once (a self-loop per node);
    * the in-degree `degOf dst` (a scatter-add of ones at the destinations) and the edge weight
      `normOf src dst` = d(src)^(-1/2) · 1 · d(dst)^(-1/2), with d^(-1/2) read as 0 where the degree is not positive;
    * one layer, `layer src dst nrm ht b`: gather the rows `ht[src]`, scale row e by `nrm e`, add the rows up at their
      destinations, add the bias to every row, and clamp below at 0;
    * the output head, `head y b`: add the bias to every row.
  The network is three layers, each applied to a dense product `mm128 h W` of the previous activations, and the head
  applied to the last product `mm40 h W`. The two programs differ only in how the four dense products are computed;
  the functions here are what they share, so that the comparison never opens them.
-/
import proofs.«174328_j51780125721472_1_alg».proof.Proof.Gen.ReferenceIdeal

set_option maxRecDepth 8192

noncomputable section

namespace Cert.Gcn

open Idealize.ShloMosaic Cert.ReferenceIdeal Cert.ReferenceIdeal.Gen

variable {F : FTy → Type} [FloatOps F]

/-- The source endpoint of every edge, then every node once. -/
def srcOf (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The destination endpoint of every edge, then every node once. -/
def dstOf (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- The in-degree of every node, self-loop included: ones added up at the destinations. -/
def degOf (dst : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 dst) (broadcastInDim S850000 ![] bcast_S_S850000 (constant S_ .f32 0x3F800000#32))

/-- The symmetric normalisation of every edge: d(src)^(-1/2) · 1 · d(dst)^(-1/2), an entry of d^(-1/2) read as 0 where
    the degree is not positive; a negative node number counts from the end. -/
def normOf (src dst : (⟨S850000, .i32⟩ : BufTy).Contents (Elt F)) : (⟨S850000, .f32⟩ : BufTy).Contents (Elt F) :=
  mulf (mulf (Host.gather gather_S50000_S850000x1_S850000_n_0_n_n_0_1_1 (select (cmpf .ogt (degOf dst) (broadcastInDim S50000 ![] bcast_S_S50000 (constant S_ .f32 0x00000000#32))) (Host.rsqrt (degOf dst)) (broadcastInDim S50000 ![] bcast_S_S50000 (id (constant S_ .f32 0x00000000#32)))) (broadcastInDim S850000x1 ![0] bcast_S850000_S850000x1_0 (select (cmpi .slt src (broadcastInDim S850000 ![] bcast_S_S850000 (constantI S_ 32 0#32))) (addi src (broadcastInDim S850000 ![] bcast_S_S850000 (constantI S_ 32 50000#32))) src))) (broadcastInDim S850000 ![] bcast_S_S850000 (constant S_ .f32 0x3F800000#32))) (Host.gather gather_S50000_S850000x1_S850000_n_0_n_n_0_1_1 (select (cmpf .ogt (degOf dst) (broadcastInDim S50000 ![] bcast_S_S50000 (constant S_ .f32 0x00000000#32))) (Host.rsqrt (degOf dst)) (broadcastInDim S50000 ![] bcast_S_S50000 (id (constant S_ .f32 0x00000000#32)))) (broadcastInDim S850000x1 ![0] bcast_S850000_S850000x1_0 (select (cmpi .slt dst (broadcastInDim S850000 ![] bcast_S_S850000 (constantI S_ 32 0#32))) (addi dst (broadcastInDim S850000 ![] bcast_S_S850000 (constantI S_ 32 50000#32))) dst)))

/-- One layer after its dense product `ht`: rows gathered at the sources, scaled edge by edge, added up at the
    destinations, the bias added to every row, clamped below at 0. -/
def layer (src dst : (⟨S850000, .i32⟩ : BufTy).Contents (Elt F)) (nrm : (⟨S850000, .f32⟩ : BufTy).Contents (Elt F))
    (ht : (⟨S50000x128, .f32⟩ : BufTy).Contents (Elt F)) (b : (⟨S128, .f32⟩ : BufTy).Contents (Elt F)) : (⟨S50000x128, .f32⟩ : BufTy).Contents (Elt F) :=
  maximumf (addf (Host.scatterAdd scatter_S50000x128_S850000x1_S850000x128_1_0_0_1 (broadcastInDim S50000x128 ![] bcast_S_S50000x128 (constant S_ .f32 0x00000000#32)) (broadcastInDim S850000x1 ![0] bcast_S850000_S850000x1_0 dst) (mulf (broadcastInDim S850000x128 ![0, 1] bcast_S850000x1_S850000x128_0_1 (broadcastInDim S850000x1 ![0] bcast_S850000_S850000x1_0 nrm)) (Host.gather gather_S50000x128_S850000x1_S850000x128_1_0_n_n_0_1_1128 ht (broadcastInDim S850000x1 ![0] bcast_S850000_S850000x1_0 (select (cmpi .slt src (broadcastInDim S850000 ![] bcast_S_S850000 (constantI S_ 32 0#32))) (addi src (broadcastInDim S850000 ![] bcast_S_S850000 (constantI S_ 32 50000#32))) src))))) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- The output head after its dense product: the bias added to every row. -/
def head (y : (⟨S50000x40, .f32⟩ : BufTy).Contents (Elt F)) (b : (⟨S40, .f32⟩ : BufTy).Contents (Elt F)) : (⟨S50000x40, .f32⟩ : BufTy).Contents (Elt F) :=
  addf y (broadcastInDim S50000x40 ![0, 1] bcast_S1x40_S50000x40_0_1 (broadcastInDim S1x40 ![1] bcast_S40_S1x40_1 b))

/-- The dense product of the activations with a square weight, as one whole-array contraction. -/
def mm128 (h : (⟨S50000x128, .f32⟩ : BufTy).Contents (Elt F)) (w : (⟨S128x128, .f32⟩ : BufTy).Contents (Elt F)) : (⟨S50000x128, .f32⟩ : BufTy).Contents (Elt F) :=
  Host.dotGeneral dot_S50000x128_S128x128_S50000x128_1_0_0_1_n_n none h w

/-- The dense product of the activations with the output weight, as one whole-array contraction. -/
def mm40 (h : (⟨S50000x128, .f32⟩ : BufTy).Contents (Elt F)) (w : (⟨S128x40, .f32⟩ : BufTy).Contents (Elt F)) : (⟨S50000x40, .f32⟩ : BufTy).Contents (Elt F) :=
  Host.dotGeneral dot_S50000x128_S128x40_S50000x40_1_0_0_1_n_n none h w

/-- The activations after layer 1, 2, 3, and the network's output. -/
def act1 (x : (⟨S50000x128, .f32⟩ : BufTy).Contents (Elt F)) (ei : (⟨S2x800000, .i32⟩ : BufTy).Contents (Elt F)) (w1 : (⟨S128x128, .f32⟩ : BufTy).Contents (Elt F)) (b1 : (⟨S128, .f32⟩ : BufTy).Contents (Elt F)) :
    (⟨S50000x128, .f32⟩ : BufTy).Contents (Elt F) :=
  layer (srcOf ei) (dstOf ei) (normOf (srcOf ei) (dstOf ei)) (mm128 x w1) b1

def act2 (x : (⟨S50000x128, .f32⟩ : BufTy).Contents (Elt F)) (ei : (⟨S2x800000, .i32⟩ : BufTy).Contents (Elt F)) (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) : (⟨S50000x128, .f32⟩ : BufTy).Contents (Elt F) :=
  layer (srcOf ei) (dstOf ei) (normOf (srcOf ei) (dstOf ei)) (mm128 (act1 x ei w1 b1) w2) b2

def act3 (x : (⟨S50000x128, .f32⟩ : BufTy).Contents (Elt F)) (ei : (⟨S2x800000, .i32⟩ : BufTy).Contents (Elt F)) (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) (w3 : (⟨S128x128, .f32⟩ : BufTy).Contents (Elt F)) (b3 : (⟨S128, .f32⟩ : BufTy).Contents (Elt F)) :
    (⟨S50000x128, .f32⟩ : BufTy).Contents (Elt F) :=
  layer (srcOf ei) (dstOf ei) (normOf (srcOf ei) (dstOf ei)) (mm128 (act2 x ei w1 b1 w2 b2) w3) b3

def gcn (x : (⟨S50000x128, .f32⟩ : BufTy).Contents (Elt F)) (ei : (⟨S2x800000, .i32⟩ : BufTy).Contents (Elt F)) (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) (w3 : (⟨S128x128, .f32⟩ : BufTy).Contents (Elt F)) (b3 : (⟨S128, .f32⟩ : BufTy).Contents (Elt F))
    (wo : (⟨S128x40, .f32⟩ : BufTy).Contents (Elt F)) (bo : (⟨S40, .f32⟩ : BufTy).Contents (Elt F)) : (⟨S50000x40, .f32⟩ : BufTy).Contents (Elt F) :=
  head (mm40 (act3 x ei w1 b1 w2 b2 w3 b3) wo) bo

end Cert.Gcn

end
-- ==== Proof.HostLayers.lean ====
/-
  The host stretches after each dense product, read as whole-array functions.

  After the k-th dense product (k = 1, 2, 3) the program runs nineteen operations and then an outlined clamp of
  three. The nineteen: the edge weights made a column and spread over the 128 feature columns; the source list with a
  negative node number moved up by the node count 50000, made a column; the rows of the product gathered at the
  sources; the gathered rows scaled edge by edge; a zero array of the output's shape; the destination list made a
  column; the scaled rows added up at their destinations into the zero array; the bias made a row, spread down the
  50000 rows, and added. The clamp: the zero scalar spread over the shape and the entrywise maximum with it. Each
  operation writes a buffer of its own and reads buffers written before it or left from earlier stretches, so the
  buffer the clamp writes holds the composition of the operations' functions at what the stretch found in the
  endpoint lists, the edge weights, the product and the bias: the function `layer`. The typed references of the
  outlined clamp carry their buffer's own type, so moving a value to the buffer and back is the identity.

  After the fourth product the head is three operations: the bias made a row, spread down the rows, and added: `head`.
-/
import proofs.«174328_j51780125721472_1_alg».proof.Proof.Gen.KernelIdeal.Launch
import proofs.«174328_j51780125721472_1_alg».proof.Proof.Stages

set_option maxRecDepth 8192

noncomputable section

namespace Cert.Gcn.Host

open Idealize.ShloMosaic Idealize.ShloMosaic.StableHlo Cert.KernelIdeal Cert.KernelIdeal.Gen

variable {F : FTy → Type} [FloatOps F]
variable (W : Valuation τ sig (Elt F))

set_option maxHeartbeats 1000000 in
/-- Layer 1: the clamp's buffer after the two stretches is `layer` of the endpoint lists, the edge weights, the
    first product and the first bias as the stretches found them. -/
theorem layer1_out : after hostOps1_1 (after hostOps1 W) (Proc.devRef .tc main_v48)
    = Cert.Gcn.layer (W (Proc.devRef .tc main_v5)) (W (Proc.devRef .tc main_v6)) (W (Proc.devRef .tc main_v30))
        (W (Proc.devRef .tc main_v31)) (W (Proc.devRef .tc main_arg3)) := by
  after_results_simp
  rfl

set_option maxHeartbeats 1000000 in
/-- Layer 2: the same operations on the second product and the second bias. -/
theorem layer2_out : after hostOps2_1 (after hostOps2 W) (Proc.devRef .tc main_v66)
    = Cert.Gcn.layer (W (Proc.devRef .tc main_v5)) (W (Proc.devRef .tc main_v6)) (W (Proc.devRef .tc main_v30))
        (W (Proc.devRef .tc main_v49)) (W (Proc.devRef .tc main_arg5)) := by
  after_results_simp
  rfl

set_option maxHeartbeats 1000000 in
/-- Layer 3: the same operations on the third product and the third bias. -/
theorem layer3_out : after hostOps3_1 (after hostOps3 W) (Proc.devRef .tc main_v84)
    = Cert.Gcn.layer (W (Proc.devRef .tc main_v5)) (W (Proc.devRef .tc main_v6)) (W (Proc.devRef .tc main_v30))
        (W (Proc.devRef .tc main_v67)) (W (Proc.devRef .tc main_arg7)) := by
  after_results_simp
  rfl

/-- The head: the output bias added to every row of the fourth product. -/
theorem head_out : after hostOps4 W (Proc.devRef .tc main_v88)
    = Cert.Gcn.head (W (Proc.devRef .tc main_v85)) (W (Proc.devRef .tc main_arg9)) := by
  after_results_simp
  rfl

end Cert.Gcn.Host

end
-- ==== Proof.HostKept.lean ====
/-
  What a stretch of host operations leaves alone.

  Every host operation writes one buffer, its result's, and no other. So a stretch changes only the buffers in the
  list of its operations' results, and any reference outside that list holds after the stretch what it held before.
  Below, for each stretch, is the list of the references it writes, the fact that every operation's written set lies
  in it, and the consequence for a reference outside the list. The stretches around one dense product are then put
  together: the endpoint lists, the edge weights, and the weights and biases of the later layers pass through a
  layer's stretches unchanged, and the arguments other than the edge list pass through the stretches before the
  first product unchanged.
-/
import proofs.«174328_j51780125721472_1_alg».proof.Proof.Gen.KernelIdeal.Launch

set_option maxRecDepth 8192

noncomputable section

namespace Cert.Gcn.Host

open Idealize.ShloMosaic Idealize.ShloMosaic.StableHlo Cert.KernelIdeal Cert.KernelIdeal.Gen

variable {F : FTy → Type} [FloatOps F]

/-- Every operation of a literal stretch writes inside a literal list of references: operation by operation, the one
    buffer it writes is its result's, and that reference is found in the list. -/
local macro "writes_in_list" : tactic =>
  `(tactic| (simp only [List.Forall]
             repeat' apply And.intro
             all_goals
               (simp only [nullary_writes, unary_writes, binary_writes, ternary_writes, reshape_writes,
                  Finset.singleton_subset_iff, List.mem_toFinset]
                exact List.mem_map_of_mem (by decide))))

/-! ## The references each stretch writes -/

/-- Written before the first product, first stretch: the two rows of the edge list, the node numbers, the endpoint
    lists, the ones and zeros, the degree, its positivity mask and its inverse square root. -/
abbrev written0 : List (Ref sig .tc) :=
  [main_v0, main_v1, main_v2, main_v3, main_v4, main_v5, main_v6, main_cst, main_v7, main_cst_0, main_v8, main_v9,
   main_v10, main_cst_1, main_v11, main_v12, main_v13, main_cst_2]
/-- Written by the outlined choice between the inverse square root and zero. -/
abbrev written0_1 : List (Ref sig .tc) := [main_call0_v0, main_call0_v1, main_v14]
/-- Written by the stretch that forms the edge weights. -/
abbrev written0_2 : List (Ref sig .tc) :=
  [main_c, main_v15, main_v16, main_c_3, main_v17, main_v18, main_v19, main_v20, main_v21, main_v22, main_c_4, main_v23,
   main_v24, main_c_5, main_v25, main_v26, main_v27, main_v28, main_v29, main_v30]
/-- Written by layer 1's nineteen operations, and by its clamp. -/
abbrev written1 : List (Ref sig .tc) :=
  [main_v32, main_c_6, main_v33, main_v34, main_c_7, main_v35, main_v36, main_v37, main_v38, main_v39, main_v40, main_v41,
   main_cst_8, main_v42, main_v43, main_v44, main_v45, main_v46, main_v47]
abbrev written1_1 : List (Ref sig .tc) := [main_call1_cst, main_call1_v0, main_v48]
/-- Written by layer 2's nineteen operations, and by its clamp. -/
abbrev written2 : List (Ref sig .tc) :=
  [main_v50, main_c_9, main_v51, main_v52, main_c_10, main_v53, main_v54, main_v55, main_v56, main_v57, main_v58, main_v59,
   main_cst_11, main_v60, main_v61, main_v62, main_v63, main_v64, main_v65]
abbrev written2_1 : List (Ref sig .tc) := [main_call2_cst, main_call2_v0, main_v66]
/-- Written by layer 3's nineteen operations, and by its clamp. -/
abbrev written3 : List (Ref sig .tc) :=
  [main_v68, main_c_12, main_v69, main_v70, main_c_13, main_v71, main_v72, main_v73, main_v74, main_v75, main_v76, main_v77,
   main_cst_14, main_v78, main_v79, main_v80, main_v81, main_v82, main_v83]
abbrev written3_1 : List (Ref sig .tc) := [main_call3_cst, main_call3_v0, main_v84]
/-- Written by the head. -/
abbrev written4 : List (Ref sig .tc) := [main_v86, main_v87, main_v88]

theorem writes0 : (hostOps0 : List (HloOp τ sig (Elt F))).Forall fun op =>
    op.writes ⊆ (written0.map (Proc.devRef (τ := τ) .tc)).toFinset := by writes_in_list
theorem writes0_1 : (hostOps0_1 : List (HloOp τ sig (Elt F))).Forall fun op =>
    op.writes ⊆ (written0_1.map (Proc.devRef (τ := τ) .tc)).toFinset := by writes_in_list
theorem writes0_2 : (hostOps0_2 : List (HloOp τ sig (Elt F))).Forall fun op =>
    op.writes ⊆ (written0_2.map (Proc.devRef (τ := τ) .tc)).toFinset := by writes_in_list
theorem writes1 : (hostOps1 : List (HloOp τ sig (Elt F))).Forall fun op =>
    op.writes ⊆ (written1.map (Proc.devRef (τ := τ) .tc)).toFinset := by writes_in_list
theorem writes1_1 : (hostOps1_1 : List (HloOp τ sig (Elt F))).Forall fun op =>
    op.writes ⊆ (written1_1.map (Proc.devRef (τ := τ) .tc)).toFinset := by writes_in_list
theorem writes2 : (hostOps2 : List (HloOp τ sig (Elt F))).Forall fun op =>
    op.writes ⊆ (written2.map (Proc.devRef (τ := τ) .tc)).toFinset := by writes_in_list
theorem writes2_1 : (hostOps2_1 : List (HloOp τ sig (Elt F))).Forall fun op =>
    op.writes ⊆ (written2_1.map (Proc.devRef (τ := τ) .tc)).toFinset := by writes_in_list
theorem writes3 : (hostOps3 : List (HloOp τ sig (Elt F))).Forall fun op =>
    op.writes ⊆ (written3.map (Proc.devRef (τ := τ) .tc)).toFinset := by writes_in_list
theorem writes3_1 : (hostOps3_1 : List (HloOp τ sig (Elt F))).Forall fun op =>
    op.writes ⊆ (written3_1.map (Proc.devRef (τ := τ) .tc)).toFinset := by writes_in_list
theorem writes4 : (hostOps4 : List (HloOp τ sig (Elt F))).Forall fun op =>
    op.writes ⊆ (written4.map (Proc.devRef (τ := τ) .tc)).toFinset := by writes_in_list

variable (W : Valuation τ sig (Elt F))

/-! ## A reference outside a stretch's list keeps its contents -/

theorem keep0 (r : Ref sig .tc) (h : r ∉ written0) : after hostOps0 W (Proc.devRef .tc r) = W (Proc.devRef .tc r) :=
  after_of_writes_sub hostOps0 W writes0 h
theorem keep0_1 (r : Ref sig .tc) (h : r ∉ written0_1) : after hostOps0_1 W (Proc.devRef .tc r) = W (Proc.devRef .tc r) :=
  after_of_writes_sub hostOps0_1 W writes0_1 h
theorem keep0_2 (r : Ref sig .tc) (h : r ∉ written0_2) : after hostOps0_2 W (Proc.devRef .tc r) = W (Proc.devRef .tc r) :=
  after_of_writes_sub hostOps0_2 W writes0_2 h
theorem keep1 (r : Ref sig .tc) (h : r ∉ written1) : after hostOps1 W (Proc.devRef .tc r) = W (Proc.devRef .tc r) :=
  after_of_writes_sub hostOps1 W writes1 h
theorem keep1_1 (r : Ref sig .tc) (h : r ∉ written1_1) : after hostOps1_1 W (Proc.devRef .tc r) = W (Proc.devRef .tc r) :=
  after_of_writes_sub hostOps1_1 W writes1_1 h
theorem keep2 (r : Ref sig .tc) (h : r ∉ written2) : after hostOps2 W (Proc.devRef .tc r) = W (Proc.devRef .tc r) :=
  after_of_writes_sub hostOps2 W writes2 h
theorem keep2_1 (r : Ref sig .tc) (h : r ∉ written2_1) : after hostOps2_1 W (Proc.devRef .tc r) = W (Proc.devRef .tc r) :=
  after_of_writes_sub hostOps2_1 W writes2_1 h
theorem keep3 (r : Ref sig .tc) (h : r ∉ written3) : after hostOps3 W (Proc.devRef .tc r) = W (Proc.devRef .tc r) :=
  after_of_writes_sub hostOps3 W writes3 h
theorem keep3_1 (r : Ref sig .tc) (h : r ∉ written3_1) : after hostOps3_1 W (Proc.devRef .tc r) = W (Proc.devRef .tc r) :=
  after_of_writes_sub hostOps3_1 W writes3_1 h
theorem keep4 (r : Ref sig .tc) (h : r ∉ written4) : after hostOps4 W (Proc.devRef .tc r) = W (Proc.devRef .tc r) :=
  after_of_writes_sub hostOps4 W writes4 h

/-! ## The stretches around one product, put together -/

/-- The three stretches before the first product change no reference outside their three lists. -/
theorem pro_keep_of (r : Ref sig .tc) (h0 : r ∉ written0) (h1 : r ∉ written0_1) (h2 : r ∉ written0_2) :
    after hostOps0_2 (after hostOps0_1 (after hostOps0 W)) (Proc.devRef .tc r) = W (Proc.devRef .tc r) :=
  (keep0_2 _ r h2).trans ((keep0_1 _ r h1).trans (keep0 W r h0))

/-- The features, the weights and the biases pass through the stretches before the first product unchanged. -/
theorem pro_keep (b : Ref sig .tc)
    (hb : b ∈ [main_arg0, main_arg2, main_arg3, main_arg4, main_arg5, main_arg6, main_arg7, main_arg8, main_arg9]) :
    after hostOps0_2 (after hostOps0_1 (after hostOps0 W)) (Proc.devRef .tc b) = W (Proc.devRef .tc b) :=
  pro_keep_of W b
    ((by decide : ∀ r ∈ [main_arg0, main_arg2, main_arg3, main_arg4, main_arg5, main_arg6, main_arg7, main_arg8, main_arg9], r ∉ written0) b hb)
    ((by decide : ∀ r ∈ [main_arg0, main_arg2, main_arg3, main_arg4, main_arg5, main_arg6, main_arg7, main_arg8, main_arg9], r ∉ written0_1) b hb)
    ((by decide : ∀ r ∈ [main_arg0, main_arg2, main_arg3, main_arg4, main_arg5, main_arg6, main_arg7, main_arg8, main_arg9], r ∉ written0_2) b hb)

/-- Layer 1's two stretches change no reference outside their two lists. -/
theorem layer1_keep_of (r : Ref sig .tc) (h0 : r ∉ written1) (h1 : r ∉ written1_1) :
    after hostOps1_1 (after hostOps1 W) (Proc.devRef .tc r) = W (Proc.devRef .tc r) :=
  (keep1_1 _ r h1).trans (keep1 W r h0)

/-- The endpoint lists, the edge weights and the later layers' weights and biases pass through layer 1 unchanged. -/
theorem layer1_keep (b : Ref sig .tc)
    (hb : b ∈ [main_v5, main_v6, main_v30, main_arg4, main_arg5, main_arg6, main_arg7, main_arg8, main_arg9]) :
    after hostOps1_1 (after hostOps1 W) (Proc.devRef .tc b) = W (Proc.devRef .tc b) :=
  layer1_keep_of W b
    ((by decide : ∀ r ∈ [main_v5, main_v6, main_v30, main_arg4, main_arg5, main_arg6, main_arg7, main_arg8, main_arg9], r ∉ written1) b hb)
    ((by decide : ∀ r ∈ [main_v5, main_v6, main_v30, main_arg4, main_arg5, main_arg6, main_arg7, main_arg8, main_arg9], r ∉ written1_1) b hb)

/-- Layer 2's two stretches change no reference outside their two lists. -/
theorem layer2_keep_of (r : Ref sig .tc) (h0 : r ∉ written2) (h1 : r ∉ written2_1) :
    after hostOps2_1 (after hostOps2 W) (Proc.devRef .tc r) = W (Proc.devRef .tc r) :=
  (keep2_1 _ r h1).trans (keep2 W r h0)

/-- The endpoint lists, the edge weights and the later layers' weights and biases pass through layer 2 unchanged. -/
theorem layer2_keep (b : Ref sig .tc)
    (hb : b ∈ [main_v5, main_v6, main_v30, main_arg6, main_arg7, main_arg8, main_arg9]) :
    after hostOps2_1 (after hostOps2 W) (Proc.devRef .tc b) = W (Proc.devRef .tc b) :=
  layer2_keep_of W b
    ((by decide : ∀ r ∈ [main_v5, main_v6, main_v30, main_arg6, main_arg7, main_arg8, main_arg9], r ∉ written2) b hb)
    ((by decide : ∀ r ∈ [main_v5, main_v6, main_v30, main_arg6, main_arg7, main_arg8, main_arg9], r ∉ written2_1) b hb)

/-- Layer 3's two stretches change no reference outside their two lists. -/
theorem layer3_keep_of (r : Ref sig .tc) (h0 : r ∉ written3) (h1 : r ∉ written3_1) :
    after hostOps3_1 (after hostOps3 W) (Proc.devRef .tc r) = W (Proc.devRef .tc r) :=
  (keep3_1 _ r h1).trans (keep3 W r h0)

/-- The output weight and bias pass through layer 3 unchanged. -/
theorem layer3_keep (b : Ref sig .tc) (hb : b ∈ [main_arg8, main_arg9]) :
    after hostOps3_1 (after hostOps3 W) (Proc.devRef .tc b) = W (Proc.devRef .tc b) :=
  layer3_keep_of W b
    ((by decide : ∀ r ∈ [main_arg8, main_arg9], r ∉ written3) b hb)
    ((by decide : ∀ r ∈ [main_arg8, main_arg9], r ∉ written3_1) b hb)

end Cert.Gcn.Host

end
-- ==== Proof.HostPrologue.lean ====
/-
  The host stretches before the first dense product, read as whole-array functions of the edge list.

  Three stretches run before the first product; together they are forty-one operations, each writing a buffer of its
  own.
    * The first takes the two rows of the edge list (a slice of one row, reshaped to a vector), lists the node numbers
      0 … 49999, and appends the node numbers to each row: the source list and the destination list, every node
      having an edge to itself. It then adds up a one for every edge at the edge's destination, starting from zeros:
      the in-degree of every node. It compares the degree with zero and takes its inverse square root.
    * The second, an outlined choice, keeps the inverse square root where the degree is positive and puts zero elsewhere.
    * The third moves a negative node number up by the node count in each endpoint list, gathers the chosen value at
      the sources and at the destinations, and multiplies: source value times one, times destination value.
  So after the three stretches the source and destination buffers hold `srcOf` and `dstOf` of the edge list as the
  stretches found it, and the edge-weight buffer holds `normOf` of those two lists.

  Each statement is read off in two passes. One pass replaces every operation's result, at the buffer the operation
  writes, by the operation's function of what its operands' buffers held, and at any other buffer by what was there;
  it visits each shared intermediate once, but it does not enter the list of sized pieces an append takes. The
  second pass does the same replacement, one occurrence at a time, for the reads left inside those lists. What is
  left are the same functions composed in the same order on both sides.
-/
import proofs.«174328_j51780125721472_1_alg».proof.Proof.Gen.KernelIdeal.Launch
import proofs.«174328_j51780125721472_1_alg».proof.Proof.Stages

set_option maxRecDepth 8192

noncomputable section

namespace Cert.Gcn.Host

open Idealize.ShloMosaic Idealize.ShloMosaic.StableHlo Cert.KernelIdeal Cert.KernelIdeal.Gen

variable {F : FTy → Type} [FloatOps F]
variable (W : Valuation τ sig (Elt F))

/-- The second pass: an operation's result at its own buffer is its function's value, at another reference what was
    there (the two references told apart by computation), one occurrence at a time until none is left. -/
local macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

set_option maxHeartbeats 1000000 in
/-- The source list: row 0 of the edge list, then every node once. The two later stretches do not write it. -/
theorem pro_src : after hostOps0_2 (after hostOps0_1 (after hostOps0 W)) (Proc.devRef .tc main_v5)
    = Cert.Gcn.srcOf (W (Proc.devRef .tc main_arg1)) := by
  after_results_simp
  results_rw
  rfl

set_option maxHeartbeats 1000000 in
/-- The destination list: row 1 of the edge list, then every node once. The two later stretches do not write it. -/
theorem pro_dst : after hostOps0_2 (after hostOps0_1 (after hostOps0 W)) (Proc.devRef .tc main_v6)
    = Cert.Gcn.dstOf (W (Proc.devRef .tc main_arg1)) := by
  after_results_simp
  results_rw
  rfl

set_option maxHeartbeats 2000000 in
/-- The edge weights: the inverse square root of the in-degree (zero where the degree is not positive) gathered at
    the sources, times one, times the same gathered at the destinations. -/
theorem pro_norm : after hostOps0_2 (after hostOps0_1 (after hostOps0 W)) (Proc.devRef .tc main_v30)
    = Cert.Gcn.normOf (Cert.Gcn.srcOf (W (Proc.devRef .tc main_arg1))) (Cert.Gcn.dstOf (W (Proc.devRef .tc main_arg1))) := by
  after_results_simp
  results_rw
  rfl

end Cert.Gcn.Host

end
-- ==== Proof.LibMatmulIdx.lean ====
/-
  A PLAIN MATRIX PRODUCT into the zero accumulator, read at an entry.

  For the dimension numbers of `M×K` by `K×N` (contract the left operand's axis 1 with the right's axis 0, no batch
  axis) the product accumulated into the splat of `+0.0` is, at the exact instance and at entry `(p, c)`, the plain sum
  `∑ k, lhs[p, k] · rhs[k, c]` over the one contracted coordinate — whatever float formats the operands carry, a
  change of format being the identity on extended reals.
-/
import Idealize.ShloMosaic.PureOps.Ideal.Laws
import Idealize.ShloMosaic.Lib.ValueIdx

noncomputable section

open scoped BigOperators

namespace Cert.MatmulIdx

open Idealize.ShloMosaic Idealize.ShloMosaic.ValueIdx

/-- The left operand's row coordinate is the output entry's. -/
theorem plain_lhs0 {M K N : Nat} (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬ (0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the output entry's. -/
theorem plain_rhs1 {M K N : Nat} (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬ (1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The left operand's index at output entry `(p, c)` and contracted coordinate `k` is `(p, k)`. -/
theorem plain_lhsIdx {M K N : Nat} (p : Fin M) (c : Fin N) (k : Fin K) :
    (DotDims.plain M K N).lhsIdx (ix2 p c) ((contrEquiv1 (DotDims.plain M K N) K rfl rfl).symm k) = ix2 p k :=
  funext fun a => Fin.ext (by
    match a with
    | ⟨0, _⟩ => exact plain_lhs0 _ _
    | ⟨1, _⟩ =>
      exact ((DotDims.plain M K N).lhsIdx_val_of_single rfl _ _).trans
        (contrEquiv1_symm_val (DotDims.plain M K N) K rfl rfl k))

/-- The right operand's index at output entry `(p, c)` and contracted coordinate `k` is `(k, c)`. -/
theorem plain_rhsIdx {M K N : Nat} (p : Fin M) (c : Fin N) (k : Fin K) :
    (DotDims.plain M K N).rhsIdx (ix2 p c) ((contrEquiv1 (DotDims.plain M K N) K rfl rfl).symm k) = ix2 k c :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => exact plain_rhs1 _ _)

/-- THE PRODUCT READ AT `(p, c)`: the sum over the contracted coordinate of the operands' products. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (c : Fin N) :
    FloatOps.matmul (DotDims.plain M K N) prec lhs rhs (constant ⟨2, ![M, N]⟩ .f32 0x00000000#32) (ix2 p c)
      = ∑ k : Fin K, lhs (ix2 p k) * rhs (ix2 k c) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.MatmulIdx

end
-- ==== Proof.RegionPayload.lean ====
/-
  WHAT ONE GRID POINT COMPUTES.  Each of the four tiled products loads a block of 10000 rows of its left operand and
  the whole right operand, changes both to a narrower float format (the identity on extended reals), multiplies them
  into the zero accumulator, and stores the product.  So entry (p, q) of the stored block is the plain sum over the
  128 contracted coordinates d of  left[p, d] · right[d, q]: row p of the block depends on row p of the left block
  and on column q of the right operand only.
-/
import proofs.«174328_j51780125721472_1_alg».proof.Proof.Gen.KernelIdeal.Skeleton
import proofs.«174328_j51780125721472_1_alg».proof.Proof.LibMatmulIdx
import Idealize.ShloMosaic.Lib.Pipeline.Value

noncomputable section

open scoped BigOperators

namespace Cert.Gcn.Regions

open Idealize.ShloMosaic Idealize.ShloMosaic.ValueIdx
open Cert.KernelIdeal Cert.KernelIdeal.Gen

/-- The first product's stored block at (p, q): the row of the left block against the column of the weight. -/
theorem pay0_apply (x0 : Vec Ideal S10000x128 .f32) (x1 : Vec Ideal S128x128 .f32) (p : Fin 10000) (q : Fin 128) :
    k0_pay1 (F := Ideal) x0 x1 (ix2 p q) = ∑ d : Fin 128, x0 (ix2 p d) * x1 (ix2 d q) := by
  unfold k0_pay1
  exact Cert.MatmulIdx.matmul_plain_zero_apply (M := 10000) (K := 128) (N := 128) none _ _ p q

/-- The second product's stored block at (p, q); the reshape of the left block to its own shape changes nothing. -/
theorem pay1_apply (x0 : Vec Ideal S10000x128 .f32) (x1 : Vec Ideal S128x128 .f32) (p : Fin 10000) (q : Fin 128) :
    k1_pay1 (F := Ideal) x0 x1 (ix2 p q) = ∑ d : Fin 128, x0 (ix2 p d) * x1 (ix2 d q) := by
  unfold k1_pay1
  refine (Cert.MatmulIdx.matmul_plain_zero_apply (M := 10000) (K := 128) (N := 128) none _ _ p q).trans ?_
  rw [shapeCast_self]
  rfl

/-- The third product's stored block at (p, q). -/
theorem pay2_apply (x0 : Vec Ideal S10000x128 .f32) (x1 : Vec Ideal S128x128 .f32) (p : Fin 10000) (q : Fin 128) :
    k2_pay1 (F := Ideal) x0 x1 (ix2 p q) = ∑ d : Fin 128, x0 (ix2 p d) * x1 (ix2 d q) := by
  unfold k2_pay1
  refine (Cert.MatmulIdx.matmul_plain_zero_apply (M := 10000) (K := 128) (N := 128) none _ _ p q).trans ?_
  rw [shapeCast_self]
  rfl

/-- The fourth product's stored block at (p, q): 40 output columns. -/
theorem pay3_apply (x0 : Vec Ideal S10000x128 .f32) (x1 : Vec Ideal S128x40 .f32) (p : Fin 10000) (q : Fin 40) :
    k3_pay1 (F := Ideal) x0 x1 (ix2 p q) = ∑ d : Fin 128, x0 (ix2 p d) * x1 (ix2 d q) := by
  unfold k3_pay1
  refine (Cert.MatmulIdx.matmul_plain_zero_apply (M := 10000) (K := 128) (N := 40) none _ _ p q).trans ?_
  rw [shapeCast_self]
  rfl

end Cert.Gcn.Regions

end
-- ==== Proof.LibHostRead.lean ====
/-
  Reads of host operations at an index, at the exact extended-real values, for rank-2 arrays: a `dot_general`
  that contracts the second axis of its left operand with the first axis of its right operand is, at entry
  `(p, q)`, the sum over the contracted coordinate of the products; a bias of length `b` broadcast first to a row
  `[1, b]` and then down `a` rows reads its own entry `q`; a scalar broadcast to any shape reads the scalar; a
  slice of `w` columns starting at column `o` reads column `o + q`; and the word of the float one is the real one.
-/
import Idealize.ShloMosaic.PureOps.Ideal.Laws
import Idealize.ShloMosaic.Lib.Pipeline.Value
import Idealize.ShloMosaic.Lib.ValueIdx

noncomputable section

open scoped BigOperators

namespace Cert.HostRead

open Idealize.ShloMosaic Idealize.ShloMosaic.ValueIdx

/-- A host product contracting axis 1 of the left operand with axis 0 of the right one, read at `(p, q)`. -/
theorem dotGeneral_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    Host.dotGeneral D prec x w (ix2 p q) = ∑ d : Fin k, x (ix2 p d) * w (ix2 d q) := by
  obtain ⟨lc, rc, ln, rn, lb, rb, wf⟩ := D
  dsimp only at hlc hrc hln hrn hlb hrb
  subst hlc hrc hln hrn hlb hrb
  refine (Ideal.dotGeneral_apply _ prec .single x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- A bias broadcast to a row and then down the rows reads its own entry. -/
theorem bias_rows_apply {α : Type} {a b : ℕ} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (p : Fin a) (q : Fin b) :
    broadcastInDim ⟨2, ![a, b]⟩ ![0, 1] h2 (broadcastInDim ⟨2, ![1, b]⟩ ![1] h1 x) (ix2 p q) = x (ix1 q) := by
  unfold broadcastInDim
  refine congrArg x (funext fun ax => Fin.ext ?_)
  match ax with
  | ⟨0, _⟩ =>
    by_cases hb : b = 1
    · subst hb; simp [ix1, ix2]
    · simp [ix1, ix2, hb]; rfl

/-- A scalar broadcast to any shape reads the scalar. -/
theorem scalar_bcast_apply {α : Type} {t : Shape} (h : (⟨0, ![]⟩ : Shape).BroadcastsInDim t ![])
    (x : (⟨0, ![]⟩ : Shape).Idx → α) (j : t.Idx) : broadcastInDim t ![] h x j = x ix0 := by
  unfold broadcastInDim
  exact congrArg x (funext fun ax => ax.elim0)

/-- A slice of `w` columns from column `o` on, all rows, reads column `o + q`. -/
theorem cols_apply {α : Type} {a n w : ℕ} (o : ℕ) (h : (⟨2, ![a, n]⟩ : Shape).Slices ![0, o] ⟨2, ![a, w]⟩)
    (x : (⟨2, ![a, n]⟩ : Shape).Idx → α) (p : Fin a) (q : Fin w) (ho : o + q.val < n) :
    extractStridedSlice ⟨2, ![a, w]⟩ ![0, o] x h (ix2 p q) = x (ix2 p ⟨o + q.val, ho⟩) := by
  refine extractStridedSlice_apply ![0, o] x h (ix2 p q) (ix2 p ⟨o + q.val, ho⟩) fun ax => ?_
  match ax with
  | ⟨0, _⟩ => show p.val = 0 + p.val; omega
  | ⟨1, _⟩ => rfl

/-- The word of the float one denotes the real one. -/
theorem ofBits_one_f32 : Ideal.ofBits .f32 0x3F800000#32 = 1 := by
  simp [Ideal.ofBits, Ideal.ieee, -EReal.coe_mul]
  norm_num

end Cert.HostRead

end
-- ==== Proof.RegionRows.lean ====
/-
  ONE ENTRY OF A ROW BLOCK AGAINST THE WHOLE PRODUCT.  The left operand has 50000 rows and is cut into five blocks of
  10000 rows; block b holds rows 10000·b … 10000·b + 9999, all 128 columns.  The right operand (128 rows, N columns) is
  not cut.  Entry (p, q) of the product of block b with the right operand is the sum over the 128 contracted
  coordinates d of  block[p, d] · right[d, q]; since block[p, d] = left[10000·b + p, d], this is entry
  (10000·b + p, q) of the product of the whole operands, which the host computes in one piece.
-/
import proofs.«174328_j51780125721472_1_alg».proof.Proof.LibHostRead

noncomputable section

open scoped BigOperators

namespace Cert.Gcn.Regions

open Idealize.ShloMosaic Idealize.ShloMosaic.ValueIdx

/-- The zero offset of a block's one whole-block access, as the constant function. -/
theorem zero_off : (![0, 0] : Fin 2 → Nat) = fun _ => 0 := funext fun a => by fin_cases a <;> rfl

/-- Block `b`'s product at `(p, q)` is the whole product at row `10000·b + p`, column `q`.  `x0` is the block of the
    left operand `A` (`hx`: its entry `y` is `A`'s entry `b` blocks further down), `x1` is the right operand `W` itself
    (`hw`), and `i` is the array index with those coordinates. -/
theorem rows_entry {N : Nat} (D : DotDims ⟨2, ![50000, 128]⟩ ⟨2, ![128, N]⟩ ⟨2, ![50000, N]⟩)
    (hlc : D.lhsContracting = [1]) (hrc : D.rhsContracting = [0]) (hln : D.lhsNonContracting = [0])
    (hrn : D.rhsNonContracting = [1]) (hlb : D.lhsBatch = []) (hrb : D.rhsBatch = [])
    (A : FVec Ideal ⟨2, ![50000, 128]⟩ .f32) (W : FVec Ideal ⟨2, ![128, N]⟩ .f32)
    (x0 : FVec Ideal ⟨2, ![10000, 128]⟩ .f32) (x1 : FVec Ideal ⟨2, ![128, N]⟩ .f32) (b : ℕ)
    (hx : ∀ (y : (⟨2, ![10000, 128]⟩ : Shape).Idx) (i : (⟨2, ![50000, 128]⟩ : Shape).Idx),
      (i 0).val = b * 10000 + (y 0).val → (i 1).val = (y 1).val → x0 y = A i)
    (hw : ∀ y : (⟨2, ![128, N]⟩ : Shape).Idx, x1 y = W y)
    (p : Fin 10000) (q : Fin N) (i : (⟨2, ![50000, N]⟩ : Shape).Idx)
    (h0 : (i 0).val = b * 10000 + p.val) (h1 : (i 1).val = q.val) :
    ∑ d : Fin 128, x0 (ix2 p d) * x1 (ix2 d q) = Host.dotGeneral (F := Ideal) D none A W i := by
  obtain ⟨p', q', rfl⟩ : ∃ (p' : Fin 50000) (q' : Fin N), i = ix2 p' q' := ⟨i 0, i 1, eq_ix2 i⟩
  obtain rfl : q' = q := Fin.ext h1
  refine ((Cert.HostRead.dotGeneral_ix2_apply D hlc hrc hln hrn hlb hrb none A W p' q').trans ?_).symm
  refine Finset.sum_congr rfl fun d _ => ?_
  rw [hx (ix2 p d) (ix2 p' d) h0 rfl, hw]

end Cert.Gcn.Regions

end
-- ==== Proof.Region0.lean ====
/-
  THE FIRST TILED PRODUCT, AS ONE ARRAY.  The grid has five points; point t takes rows 10000·t … 10000·t + 9999 of the
  left operand (all 128 columns), the whole 128 × 128 weight, and writes rows 10000·t … 10000·t + 9999 of the output.
  What it writes is the product of its row block with the weight, which is the same rows of the product of the whole
  operands.  The five row blocks cover all 50000 rows, so after the last point the output array is the whole product.
-/
import proofs.«174328_j51780125721472_1_alg».proof.Proof.Gen.KernelIdeal.Frame
import proofs.«174328_j51780125721472_1_alg».proof.Proof.Gen.ReferenceIdeal
import proofs.«174328_j51780125721472_1_alg».proof.Proof.RegionPayload
import proofs.«174328_j51780125721472_1_alg».proof.Proof.RegionRows
import Idealize.ShloMosaic.Lib.Pipeline.Value

noncomputable section

open scoped BigOperators

namespace Cert.Gcn.Regions

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The product of the whole operands, as the host computes it. -/
abbrev whole0 (A : S50000x128.Idx → Elt Ideal .f32) (W : S128x128.Idx → Elt Ideal .f32) : S50000x128.Idx → Elt Ideal .f32 :=
  Host.dotGeneral (F := Ideal) (φ₁ := .f32) (φ₂ := .f32) Cert.ReferenceIdeal.dot_S50000x128_S128x128_S50000x128_1_0_0_1_n_n none A W

/-- The index maps over the five grid points: the left operand's block and the output's block are both row block `t`,
    column block 0; the weight's block is always block (0, 0). -/
theorem blocks_at0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- Entry `y` of the left operand's block at point `t` is the operand's entry in row `10000·(block index) + y 0`. -/
theorem left_block0 (c : Dev nD) (t : Fin cfg0.N) (y : S10000x128.Idx) (i : S50000x128.Idx)
    (h0 : (i 0).val = win0_2.index t (0 : Fin 2) * 10000 + (y 0).val) (h1 : (i 1).val = (y 1).val) :
    iblk0 V c 0 t y = V c main_arg0 i := by
  obtain ⟨e0, e1, -⟩ := blocks_at0 t
  show V c main_arg0 (((cfg0.win 0).blk t).view.emb y) = V c main_arg0 i
  refine congrArg (V c main_arg0) (funext fun a => Fin.ext ?_)
  match a with
  | ⟨0, _⟩ => show win0_0.index t (0 : Fin 2) * 10000 + 1 * (y 0).val = (i 0).val; omega
  | ⟨1, _⟩ => show win0_0.index t (1 : Fin 2) * 128 + 1 * (y 1).val = (i 1).val; omega

/-- The weight's block at every point is the weight. -/
theorem weight_block0 (c : Dev nD) (t : Fin cfg0.N) (y : S128x128.Idx) :
    iblk0 V c 1 t y = V c main_arg2 y := by
  obtain ⟨-, -, e2, e3, -⟩ := blocks_at0 t
  show V c main_arg2 (((cfg0.win 1).blk t).view.emb y) = V c main_arg2 y
  refine congrArg (V c main_arg2) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- WHAT POINT `t` WRITES BACK is its row block of the whole product. -/
theorem flushed_eq0 (c : Dev nD) (t : Fin cfg0.N) :
    (dat0 (F := Ideal) V c).flushed 2 t
      = ((cfg0.win 2).blk t).view.read (Elt Ideal) (whole0 (V c main_arg0) (V c main_arg2)) := by
  show (cfg0.win 2).cut (grid0.coords t) ((dat0 V c).after 2 t) = _
  rw [after0_2]
  unfold out0_2
  rw [View.canon_unit_zero zero_off]
  simp only [View.ld_unit_zero (S := S10000x128) zero_off, View.ld_unit_zero (S := S128x128) zero_off]
  obtain ⟨-, -, -, -, e4, -⟩ := blocks_at0 t
  funext j
  show k0_pay1 (iblk0 V c 0 t) (iblk0 V c 1 t) j
    = whole0 (V c main_arg0) (V c main_arg2) (((cfg0.win 2).blk t).view.emb j)
  obtain ⟨p, q, rfl⟩ : ∃ (p : Fin 10000) (q : Fin 128), j = ix2 p q := ⟨j 0, j 1, eq_ix2 j⟩
  refine (pay0_apply (iblk0 V c 0 t) (iblk0 V c 1 t) p q).trans ?_
  refine rows_entry Cert.ReferenceIdeal.dot_S50000x128_S128x128_S50000x128_1_0_0_1_n_n rfl rfl rfl rfl rfl rfl
    (V c main_arg0) (V c main_arg2) (iblk0 V c 0 t) (iblk0 V c 1 t) (win0_2.index t (0 : Fin 2))
    (left_block0 V c t) (weight_block0 V c t) p q _ ?_ ?_
  · show win0_2.index t (0 : Fin 2) * 10000 + 1 * p.val = win0_2.index t (0 : Fin 2) * 10000 + p.val; omega
  · show win0_2.index t (1 : Fin 2) * 128 + 1 * q.val = q.val; omega

/-- An index of the output array is in point `t`'s block iff each coordinate is in the block's range on its axis. -/
theorem mem_blk0 (t : Fin cfg0.N) (i : S50000x128.Idx) :
    i ∈ ((cfg0.win 2).blk t).view.set
      ↔ ∀ a : Fin 2, win0_2.index t a * S10000x128.size a ≤ (i a).val ∧ (i a).val < win0_2.index t a * S10000x128.size a + S10000x128.size a := by
  show i ∈ ((View.whole main_v31).slice (win0_2.rect t)).set ↔ _
  rw [View.set_slice_whole, Rect.mem_set_unit]
  exact Iff.rfl

/-- Row `r` of the output lies in the block of point `r / 10000`: the five row blocks cover the array. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 5 := N_0
  let t : Fin cfg0.N := ⟨(i 0).val / 10000, by rw [hN]; omega⟩
  obtain ⟨-, -, -, -, e4, e5⟩ := blocks_at0 t
  have e5' : win0_2.index t (0 : Fin 2) = (i 0).val / 10000 := e5
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- THE OUTPUT ARRAY after the last point is the product of the whole operands as the region found them. -/
theorem final0 (c : Dev nD) :
    (dat0 (F := Ideal) V c).arrAt 2 cfg0.N
      = Host.dotGeneral (F := Ideal) (φ₁ := .f32) (φ₂ := .f32) Cert.ReferenceIdeal.dot_S50000x128_S128x128_S50000x128_1_0_0_1_n_n none
          (V c main_arg0) (V c main_arg2) :=
  (dat0 (F := Ideal) V c).arrAt_eq_of_cover 2 (whole0 (V c main_arg0) (V c main_arg2))
    (fun t _ => flushed_eq0 V c t) cover0

end Cert.Gcn.Regions

end
-- ==== Proof.Region1.lean ====
/-
  THE SECOND TILED PRODUCT, AS ONE ARRAY.  As for the first: five grid points, point t taking rows 10000·t … 10000·t + 9999
  of the left operand (the first layer's activations, all 128 columns) and the whole 128 × 128 weight, and writing the
  same rows of the output.  Each point writes its row block of the product of the whole operands, and the five row
  blocks cover all 50000 rows, so after the last point the output array is the whole product.
-/
import proofs.«174328_j51780125721472_1_alg».proof.Proof.Gen.KernelIdeal.Frame
import proofs.«174328_j51780125721472_1_alg».proof.Proof.Gen.ReferenceIdeal
import proofs.«174328_j51780125721472_1_alg».proof.Proof.RegionPayload
import proofs.«174328_j51780125721472_1_alg».proof.Proof.RegionRows
import Idealize.ShloMosaic.Lib.Pipeline.Value

noncomputable section

open scoped BigOperators

namespace Cert.Gcn.Regions

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The product of the whole operands, as the host computes it. -/
abbrev whole1 (A : S50000x128.Idx → Elt Ideal .f32) (W : S128x128.Idx → Elt Ideal .f32) : S50000x128.Idx → Elt Ideal .f32 :=
  Host.dotGeneral (F := Ideal) (φ₁ := .f32) (φ₂ := .f32) Cert.ReferenceIdeal.dot_S50000x128_S128x128_S50000x128_1_0_0_1_n_n none A W

/-- The index maps over the five grid points: the left operand's block and the output's block are both row block `t`,
    column block 0; the weight's block is always block (0, 0). -/
theorem blocks_at1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- Entry `y` of the left operand's block at point `t` is the operand's entry in row `10000·(block index) + y 0`. -/
theorem left_block1 (c : Dev nD) (t : Fin cfg1.N) (y : S10000x128.Idx) (i : S50000x128.Idx)
    (h0 : (i 0).val = win1_2.index t (0 : Fin 2) * 10000 + (y 0).val) (h1 : (i 1).val = (y 1).val) :
    iblk1 V c 0 t y = V c main_v48 i := by
  obtain ⟨e0, e1, -⟩ := blocks_at1 t
  show V c main_v48 (((cfg1.win 0).blk t).view.emb y) = V c main_v48 i
  refine congrArg (V c main_v48) (funext fun a => Fin.ext ?_)
  match a with
  | ⟨0, _⟩ => show win1_0.index t (0 : Fin 2) * 10000 + 1 * (y 0).val = (i 0).val; omega
  | ⟨1, _⟩ => show win1_0.index t (1 : Fin 2) * 128 + 1 * (y 1).val = (i 1).val; omega

/-- The weight's block at every point is the weight. -/
theorem weight_block1 (c : Dev nD) (t : Fin cfg1.N) (y : S128x128.Idx) :
    iblk1 V c 1 t y = V c main_arg4 y := by
  obtain ⟨-, -, e2, e3, -⟩ := blocks_at1 t
  show V c main_arg4 (((cfg1.win 1).blk t).view.emb y) = V c main_arg4 y
  refine congrArg (V c main_arg4) (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- WHAT POINT `t` WRITES BACK is its row block of the whole product. -/
theorem flushed_eq1 (c : Dev nD) (t : Fin cfg1.N) :
    (dat1 (F := Ideal) V c).flushed 2 t
      = ((cfg1.win 2).blk t).view.read (Elt Ideal) (whole1 (V c main_v48) (V c main_arg4)) := by
  show (cfg1.win 2).cut (grid1.coords t) ((dat1 V c).after 2 t) = _
  rw [after1_2]
  unfold out1_2
  rw [View.canon_unit_zero zero_off]
  simp only [View.ld_unit_zero (S := S10000x128) zero_off, View.ld_unit_zero (S := S128x128) zero_off]
  obtain ⟨-, -, -, -, e4, -⟩ := blocks_at1 t
  funext j
  show k1_pay1 (iblk1 V c 0 t) (iblk1 V c 1 t) j
    = whole1 (V c main_v48) (V c main_arg4) (((cfg1.win 2).blk t).view.emb j)
  obtain ⟨p, q, rfl⟩ : ∃ (p : Fin 10000) (q : Fin 128), j = ix2 p q := ⟨j 0, j 1, eq_ix2 j⟩
  refine (pay1_apply (iblk1 V c 0 t) (iblk1 V c 1 t) p q).trans ?_
  refine rows_entry Cert.ReferenceIdeal.dot_S50000x128_S128x128_S50000x128_1_0_0_1_n_n rfl rfl rfl rfl rfl rfl
    (V c main_v48) (V c main_arg4) (iblk1 V c 0 t) (iblk1 V c 1 t) (win1_2.index t (0 : Fin 2))
    (left_block1 V c t) (weight_block1 V c t) p q _ ?_ ?_
  · show win1_2.index t (0 : Fin 2) * 10000 + 1 * p.val = win1_2.index t (0 : Fin 2) * 10000 + p.val; omega
  · show win1_2.index t (1 : Fin 2) * 128 + 1 * q.val = q.val; omega

/-- An index of the output array is in point `t`'s block iff each coordinate is in the block's range on its axis. -/
theorem mem_blk1 (t : Fin cfg1.N) (i : S50000x128.Idx) :
    i ∈ ((cfg1.win 2).blk t).view.set
      ↔ ∀ a : Fin 2, win1_2.index t a * S10000x128.size a ≤ (i a).val ∧ (i a).val < win1_2.index t a * S10000x128.size a + S10000x128.size a := by
  show i ∈ ((View.whole main_v49).slice (win1_2.rect t)).set ↔ _
  rw [View.set_slice_whole, Rect.mem_set_unit]
  exact Iff.rfl

/-- Row `r` of the output lies in the block of point `r / 10000`: the five row blocks cover the array. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 5 := N_1
  let t : Fin cfg1.N := ⟨(i 0).val / 10000, by rw [hN]; omega⟩
  obtain ⟨-, -, -, -, e4, e5⟩ := blocks_at1 t
  have e5' : win1_2.index t (0 : Fin 2) = (i 0).val / 10000 := e5
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- THE OUTPUT ARRAY after the last point is the product of the whole operands as the region found them. -/
theorem final1 (c : Dev nD) :
    (dat1 (F := Ideal) V c).arrAt 2 cfg1.N
      = Host.dotGeneral (F := Ideal) (φ₁ := .f32) (φ₂ := .f32) Cert.ReferenceIdeal.dot_S50000x128_S128x128_S50000x128_1_0_0_1_n_n none
          (V c main_v48) (V c main_arg4) :=
  (dat1 (F := Ideal) V c).arrAt_eq_of_cover 2 (whole1 (V c main_v48) (V c main_arg4))
    (fun t _ => flushed_eq1 V c t) cover1

end Cert.Gcn.Regions

end
-- ==== Proof.Region2.lean ====
/-
  THE THIRD TILED PRODUCT, AS ONE ARRAY.  Five grid points, point t taking rows 10000·t … 10000·t + 9999 of the left
  operand (the second layer's activations, all 128 columns) and the whole 128 × 128 weight, and writing the same rows
  of the output.  Each point writes its row block of the product of the whole operands, and the five row blocks cover
  all 50000 rows, so after the last point the output array is the whole product.
-/
import proofs.«174328_j51780125721472_1_alg».proof.Proof.Gen.KernelIdeal.Frame
import proofs.«174328_j51780125721472_1_alg».proof.Proof.Gen.ReferenceIdeal
import proofs.«174328_j51780125721472_1_alg».proof.Proof.RegionPayload
import proofs.«174328_j51780125721472_1_alg».proof.Proof.RegionRows
import Idealize.ShloMosaic.Lib.Pipeline.Value

noncomputable section

open scoped BigOperators

namespace Cert.Gcn.Regions

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The product of the whole operands, as the host computes it. -/
abbrev whole2 (A : S50000x128.Idx → Elt Ideal .f32) (W : S128x128.Idx → Elt Ideal .f32) : S50000x128.Idx → Elt Ideal .f32 :=
  Host.dotGeneral (F := Ideal) (φ₁ := .f32) (φ₂ := .f32) Cert.ReferenceIdeal.dot_S50000x128_S128x128_S50000x128_1_0_0_1_n_n none A W

/-- The index maps over the five grid points: the left operand's block and the output's block are both row block `t`,
    column block 0; the weight's block is always block (0, 0). -/
theorem blocks_at2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- Entry `y` of the left operand's block at point `t` is the operand's entry in row `10000·(block index) + y 0`. -/
theorem left_block2 (c : Dev nD) (t : Fin cfg2.N) (y : S10000x128.Idx) (i : S50000x128.Idx)
    (h0 : (i 0).val = win2_2.index t (0 : Fin 2) * 10000 + (y 0).val) (h1 : (i 1).val = (y 1).val) :
    iblk2 V c 0 t y = V c main_v66 i := by
  obtain ⟨e0, e1, -⟩ := blocks_at2 t
  show V c main_v66 (((cfg2.win 0).blk t).view.emb y) = V c main_v66 i
  refine congrArg (V c main_v66) (funext fun a => Fin.ext ?_)
  match a with
  | ⟨0, _⟩ => show win2_0.index t (0 : Fin 2) * 10000 + 1 * (y 0).val = (i 0).val; omega
  | ⟨1, _⟩ => show win2_0.index t (1 : Fin 2) * 128 + 1 * (y 1).val = (i 1).val; omega

/-- The weight's block at every point is the weight. -/
theorem weight_block2 (c : Dev nD) (t : Fin cfg2.N) (y : S128x128.Idx) :
    iblk2 V c 1 t y = V c main_arg6 y := by
  obtain ⟨-, -, e2, e3, -⟩ := blocks_at2 t
  show V c main_arg6 (((cfg2.win 1).blk t).view.emb y) = V c main_arg6 y
  refine congrArg (V c main_arg6) (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- WHAT POINT `t` WRITES BACK is its row block of the whole product. -/
theorem flushed_eq2 (c : Dev nD) (t : Fin cfg2.N) :
    (dat2 (F := Ideal) V c).flushed 2 t
      = ((cfg2.win 2).blk t).view.read (Elt Ideal) (whole2 (V c main_v66) (V c main_arg6)) := by
  show (cfg2.win 2).cut (grid2.coords t) ((dat2 V c).after 2 t) = _
  rw [after2_2]
  unfold out2_2
  rw [View.canon_unit_zero zero_off]
  simp only [View.ld_unit_zero (S := S10000x128) zero_off, View.ld_unit_zero (S := S128x128) zero_off]
  obtain ⟨-, -, -, -, e4, -⟩ := blocks_at2 t
  funext j
  show k2_pay1 (iblk2 V c 0 t) (iblk2 V c 1 t) j
    = whole2 (V c main_v66) (V c main_arg6) (((cfg2.win 2).blk t).view.emb j)
  obtain ⟨p, q, rfl⟩ : ∃ (p : Fin 10000) (q : Fin 128), j = ix2 p q := ⟨j 0, j 1, eq_ix2 j⟩
  refine (pay2_apply (iblk2 V c 0 t) (iblk2 V c 1 t) p q).trans ?_
  refine rows_entry Cert.ReferenceIdeal.dot_S50000x128_S128x128_S50000x128_1_0_0_1_n_n rfl rfl rfl rfl rfl rfl
    (V c main_v66) (V c main_arg6) (iblk2 V c 0 t) (iblk2 V c 1 t) (win2_2.index t (0 : Fin 2))
    (left_block2 V c t) (weight_block2 V c t) p q _ ?_ ?_
  · show win2_2.index t (0 : Fin 2) * 10000 + 1 * p.val = win2_2.index t (0 : Fin 2) * 10000 + p.val; omega
  · show win2_2.index t (1 : Fin 2) * 128 + 1 * q.val = q.val; omega

/-- An index of the output array is in point `t`'s block iff each coordinate is in the block's range on its axis. -/
theorem mem_blk2 (t : Fin cfg2.N) (i : S50000x128.Idx) :
    i ∈ ((cfg2.win 2).blk t).view.set
      ↔ ∀ a : Fin 2, win2_2.index t a * S10000x128.size a ≤ (i a).val ∧ (i a).val < win2_2.index t a * S10000x128.size a + S10000x128.size a := by
  show i ∈ ((View.whole main_v67).slice (win2_2.rect t)).set ↔ _
  rw [View.set_slice_whole, Rect.mem_set_unit]
  exact Iff.rfl

/-- Row `r` of the output lies in the block of point `r / 10000`: the five row blocks cover the array. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 5 := N_2
  let t : Fin cfg2.N := ⟨(i 0).val / 10000, by rw [hN]; omega⟩
  obtain ⟨-, -, -, -, e4, e5⟩ := blocks_at2 t
  have e5' : win2_2.index t (0 : Fin 2) = (i 0).val / 10000 := e5
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- THE OUTPUT ARRAY after the last point is the product of the whole operands as the region found them. -/
theorem final2 (c : Dev nD) :
    (dat2 (F := Ideal) V c).arrAt 2 cfg2.N
      = Host.dotGeneral (F := Ideal) (φ₁ := .f32) (φ₂ := .f32) Cert.ReferenceIdeal.dot_S50000x128_S128x128_S50000x128_1_0_0_1_n_n none
          (V c main_v66) (V c main_arg6) :=
  (dat2 (F := Ideal) V c).arrAt_eq_of_cover 2 (whole2 (V c main_v66) (V c main_arg6))
    (fun t _ => flushed_eq2 V c t) cover2

end Cert.Gcn.Regions

end
-- ==== Proof.Region3.lean ====
/-
  THE FOURTH TILED PRODUCT, AS ONE ARRAY.  Five grid points, point t taking rows 10000·t … 10000·t + 9999 of the left
  operand (the third layer's activations, all 128 columns) and the whole 128 × 40 weight, and writing rows
  10000·t … 10000·t + 9999 of the 50000 × 40 output.  Each point writes its row block of the product of the whole
  operands, and the five row blocks cover all 50000 rows, so after the last point the output array is the whole product.
-/
import proofs.«174328_j51780125721472_1_alg».proof.Proof.Gen.KernelIdeal.Frame
import proofs.«174328_j51780125721472_1_alg».proof.Proof.Gen.ReferenceIdeal
import proofs.«174328_j51780125721472_1_alg».proof.Proof.RegionPayload
import proofs.«174328_j51780125721472_1_alg».proof.Proof.RegionRows
import Idealize.ShloMosaic.Lib.Pipeline.Value

noncomputable section

open scoped BigOperators

namespace Cert.Gcn.Regions

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The product of the whole operands, as the host computes it. -/
abbrev whole3 (A : S50000x128.Idx → Elt Ideal .f32) (W : S128x40.Idx → Elt Ideal .f32) : S50000x40.Idx → Elt Ideal .f32 :=
  Host.dotGeneral (F := Ideal) (φ₁ := .f32) (φ₂ := .f32) Cert.ReferenceIdeal.dot_S50000x128_S128x40_S50000x40_1_0_0_1_n_n none A W

/-- The index maps over the five grid points: the left operand's block and the output's block are both row block `t`,
    column block 0; the weight's block is always block (0, 0). -/
theorem blocks_at3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) = t.val :=
  (by decide +kernel : ∀ t : Fin grid3.N, _)

/-- Entry `y` of the left operand's block at point `t` is the operand's entry in row `10000·(block index) + y 0`. -/
theorem left_block3 (c : Dev nD) (t : Fin cfg3.N) (y : S10000x128.Idx) (i : S50000x128.Idx)
    (h0 : (i 0).val = win3_2.index t (0 : Fin 2) * 10000 + (y 0).val) (h1 : (i 1).val = (y 1).val) :
    iblk3 V c 0 t y = V c main_v84 i := by
  obtain ⟨e0, e1, -⟩ := blocks_at3 t
  show V c main_v84 (((cfg3.win 0).blk t).view.emb y) = V c main_v84 i
  refine congrArg (V c main_v84) (funext fun a => Fin.ext ?_)
  match a with
  | ⟨0, _⟩ => show win3_0.index t (0 : Fin 2) * 10000 + 1 * (y 0).val = (i 0).val; omega
  | ⟨1, _⟩ => show win3_0.index t (1 : Fin 2) * 128 + 1 * (y 1).val = (i 1).val; omega

/-- The weight's block at every point is the weight. -/
theorem weight_block3 (c : Dev nD) (t : Fin cfg3.N) (y : S128x40.Idx) :
    iblk3 V c 1 t y = V c main_arg8 y := by
  obtain ⟨-, -, e2, e3, -⟩ := blocks_at3 t
  show V c main_arg8 (((cfg3.win 1).blk t).view.emb y) = V c main_arg8 y
  refine congrArg (V c main_arg8) (funext fun a => Fin.ext ?_)
  match a with
  | ⟨0, _⟩ => show win3_1.index t (0 : Fin 2) * 128 + 1 * (y 0).val = (y 0).val; omega
  | ⟨1, _⟩ => show win3_1.index t (1 : Fin 2) * 40 + 1 * (y 1).val = (y 1).val; omega

/-- WHAT POINT `t` WRITES BACK is its row block of the whole product. -/
theorem flushed_eq3 (c : Dev nD) (t : Fin cfg3.N) :
    (dat3 (F := Ideal) V c).flushed 2 t
      = ((cfg3.win 2).blk t).view.read (Elt Ideal) (whole3 (V c main_v84) (V c main_arg8)) := by
  show (cfg3.win 2).cut (grid3.coords t) ((dat3 V c).after 2 t) = _
  rw [after3_2]
  unfold out3_2
  rw [View.canon_unit_zero zero_off]
  simp only [View.ld_unit_zero (S := S10000x128) zero_off, View.ld_unit_zero (S := S128x40) zero_off]
  obtain ⟨-, -, -, -, e4, -⟩ := blocks_at3 t
  funext j
  show k3_pay1 (iblk3 V c 0 t) (iblk3 V c 1 t) j
    = whole3 (V c main_v84) (V c main_arg8) (((cfg3.win 2).blk t).view.emb j)
  obtain ⟨p, q, rfl⟩ : ∃ (p : Fin 10000) (q : Fin 40), j = ix2 p q := ⟨j 0, j 1, eq_ix2 j⟩
  refine (pay3_apply (iblk3 V c 0 t) (iblk3 V c 1 t) p q).trans ?_
  refine rows_entry Cert.ReferenceIdeal.dot_S50000x128_S128x40_S50000x40_1_0_0_1_n_n rfl rfl rfl rfl rfl rfl
    (V c main_v84) (V c main_arg8) (iblk3 V c 0 t) (iblk3 V c 1 t) (win3_2.index t (0 : Fin 2))
    (left_block3 V c t) (weight_block3 V c t) p q _ ?_ ?_
  · show win3_2.index t (0 : Fin 2) * 10000 + 1 * p.val = win3_2.index t (0 : Fin 2) * 10000 + p.val; omega
  · show win3_2.index t (1 : Fin 2) * 40 + 1 * q.val = q.val; omega

/-- An index of the output array is in point `t`'s block iff each coordinate is in the block's range on its axis. -/
theorem mem_blk3 (t : Fin cfg3.N) (i : S50000x40.Idx) :
    i ∈ ((cfg3.win 2).blk t).view.set
      ↔ ∀ a : Fin 2, win3_2.index t a * S10000x40.size a ≤ (i a).val ∧ (i a).val < win3_2.index t a * S10000x40.size a + S10000x40.size a := by
  show i ∈ ((View.whole main_v85).slice (win3_2.rect t)).set ↔ _
  rw [View.set_slice_whole, Rect.mem_set_unit]
  exact Iff.rfl

/-- Row `r` of the output lies in the block of point `r / 10000`: the five row blocks cover the array. -/
theorem cover3 (i : S50000x40.Idx) :
    ∃ t : Fin cfg3.N, (cfg3.win 2).flush t = true ∧ i ∈ ((cfg3.win 2).blk t).view.set := by
  have hi0 : (i 0).val < 50000 := (i 0).isLt
  have hi1 : (i 1).val < 40 := (i 1).isLt
  have hN : cfg3.N = 5 := N_3
  let t : Fin cfg3.N := ⟨(i 0).val / 10000, by rw [hN]; omega⟩
  obtain ⟨-, -, -, -, e4, e5⟩ := blocks_at3 t
  have e5' : win3_2.index t (0 : Fin 2) = (i 0).val / 10000 := e5
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 40 ≤ (i 1).val ∧ (i 1).val < win3_2.index t (1 : Fin 2) * 40 + 40; omega

/-- THE OUTPUT ARRAY after the last point is the product of the whole operands as the region found them. -/
theorem final3 (c : Dev nD) :
    (dat3 (F := Ideal) V c).arrAt 2 cfg3.N
      = Host.dotGeneral (F := Ideal) (φ₁ := .f32) (φ₂ := .f32) Cert.ReferenceIdeal.dot_S50000x128_S128x40_S50000x40_1_0_0_1_n_n none
          (V c main_v84) (V c main_arg8) :=
  (dat3 (F := Ideal) V c).arrAt_eq_of_cover 2 (whole3 (V c main_v84) (V c main_arg8))
    (fun t _ => flushed_eq3 V c t) cover3

end Cert.Gcn.Regions

end
-- ==== Proof.KernelValue.lean ====
/-
  The idealized kernel program's result is the network `gcn` of its ten argument arrays.

  The program's buffer contents are followed from the launch to the return, boundary by boundary. Before the first
  product the host operations leave the endpoint lists and the edge weights of the edge list in three buffers and
  touch no argument. A pallas_call region leaves in its output array the dense product of the two arrays it reads
  — every block of 10000 rows is the product's rows there, and the five blocks tile the array — and every other
  buffer as it found it. The host operations after a product leave the layer's activations, and touch neither the
  endpoint lists, the edge weights nor the arguments still to be read. After the fourth product the head adds the
  output bias. Each boundary's facts follow from the previous boundary's by rewriting.
-/
import proofs.«174328_j51780125721472_1_alg».proof.Proof.Gen.KernelIdeal.Frame
import proofs.«174328_j51780125721472_1_alg».proof.Proof.Stages
import proofs.«174328_j51780125721472_1_alg».proof.Proof.HostLayers
import proofs.«174328_j51780125721472_1_alg».proof.Proof.HostKept
import proofs.«174328_j51780125721472_1_alg».proof.Proof.HostPrologue
import proofs.«174328_j51780125721472_1_alg».proof.Proof.Region0
import proofs.«174328_j51780125721472_1_alg».proof.Proof.Region1
import proofs.«174328_j51780125721472_1_alg».proof.Proof.Region2
import proofs.«174328_j51780125721472_1_alg».proof.Proof.Region3

set_option maxRecDepth 16384

noncomputable section

namespace Cert.Gcn.Kernel

open Idealize.ShloMosaic Idealize.ShloMosaic.TcCoe Idealize.SL.Sem Idealize.ShloMosaic.StableHlo
open Cert.KernelIdeal Cert.KernelIdeal.Gen Cert.Gcn

variable (m : (ℓ : Loc nD τ sig) → Buf (Elt Ideal) ℓ) (ρ : Dev nD → PrngReg) (c : Dev nD)

/-! ## Before the first product -/

theorem b3_v5 : W3 m ρ c (Proc.devRef .tc main_v5) = srcOf (m ((c : Thread nD τ).loc main_arg1)) := Cert.Gcn.Host.pro_src (W0 m ρ c)
theorem b3_v6 : W3 m ρ c (Proc.devRef .tc main_v6) = dstOf (m ((c : Thread nD τ).loc main_arg1)) := Cert.Gcn.Host.pro_dst (W0 m ρ c)
theorem b3_v30 : W3 m ρ c (Proc.devRef .tc main_v30) = normOf (srcOf (m ((c : Thread nD τ).loc main_arg1))) (dstOf (m ((c : Thread nD τ).loc main_arg1))) := Cert.Gcn.Host.pro_norm (W0 m ρ c)
theorem b3_arg0 : W3 m ρ c (Proc.devRef .tc main_arg0) = m ((c : Thread nD τ).loc main_arg0) := Cert.Gcn.Host.pro_keep (W0 m ρ c) main_arg0 (by decide)
theorem b3_arg2 : W3 m ρ c (Proc.devRef .tc main_arg2) = m ((c : Thread nD τ).loc main_arg2) := Cert.Gcn.Host.pro_keep (W0 m ρ c) main_arg2 (by decide)
theorem b3_arg3 : W3 m ρ c (Proc.devRef .tc main_arg3) = m ((c : Thread nD τ).loc main_arg3) := Cert.Gcn.Host.pro_keep (W0 m ρ c) main_arg3 (by decide)
theorem b3_arg4 : W3 m ρ c (Proc.devRef .tc main_arg4) = m ((c : Thread nD τ).loc main_arg4) := Cert.Gcn.Host.pro_keep (W0 m ρ c) main_arg4 (by decide)
theorem b3_arg5 : W3 m ρ c (Proc.devRef .tc main_arg5) = m ((c : Thread nD τ).loc main_arg5) := Cert.Gcn.Host.pro_keep (W0 m ρ c) main_arg5 (by decide)
theorem b3_arg6 : W3 m ρ c (Proc.devRef .tc main_arg6) = m ((c : Thread nD τ).loc main_arg6) := Cert.Gcn.Host.pro_keep (W0 m ρ c) main_arg6 (by decide)
theorem b3_arg7 : W3 m ρ c (Proc.devRef .tc main_arg7) = m ((c : Thread nD τ).loc main_arg7) := Cert.Gcn.Host.pro_keep (W0 m ρ c) main_arg7 (by decide)
theorem b3_arg8 : W3 m ρ c (Proc.devRef .tc main_arg8) = m ((c : Thread nD τ).loc main_arg8) := Cert.Gcn.Host.pro_keep (W0 m ρ c) main_arg8 (by decide)
theorem b3_arg9 : W3 m ρ c (Proc.devRef .tc main_arg9) = m ((c : Thread nD τ).loc main_arg9) := Cert.Gcn.Host.pro_keep (W0 m ρ c) main_arg9 (by decide)

/-! ## After product 1 -/

theorem b4_v31 : W4 m ρ c (Proc.devRef .tc main_v31) = mm128 (m ((c : Thread nD τ).loc main_arg0)) (m ((c : Thread nD τ).loc main_arg2)) := by
  have h := (W4_arr m ρ c 2).trans (Cert.Gcn.Regions.final0 (V3 m ρ) c)
  rw [show V3 m ρ c main_arg0 = m ((c : Thread nD τ).loc main_arg0) from b3_arg0 m ρ c, show V3 m ρ c main_arg2 = m ((c : Thread nD τ).loc main_arg2) from b3_arg2 m ρ c] at h
  exact h
theorem b4_v5 : W4 m ρ c (Proc.devRef .tc main_v5) = srcOf (m ((c : Thread nD τ).loc main_arg1)) := (W4_of_ne m ρ c main_v5 (by decide)).trans (b3_v5 m ρ c)
theorem b4_v6 : W4 m ρ c (Proc.devRef .tc main_v6) = dstOf (m ((c : Thread nD τ).loc main_arg1)) := (W4_of_ne m ρ c main_v6 (by decide)).trans (b3_v6 m ρ c)
theorem b4_v30 : W4 m ρ c (Proc.devRef .tc main_v30) = normOf (srcOf (m ((c : Thread nD τ).loc main_arg1))) (dstOf (m ((c : Thread nD τ).loc main_arg1))) := (W4_of_ne m ρ c main_v30 (by decide)).trans (b3_v30 m ρ c)
theorem b4_arg3 : W4 m ρ c (Proc.devRef .tc main_arg3) = m ((c : Thread nD τ).loc main_arg3) := (W4_of_ne m ρ c main_arg3 (by decide)).trans (b3_arg3 m ρ c)
theorem b4_arg4 : W4 m ρ c (Proc.devRef .tc main_arg4) = m ((c : Thread nD τ).loc main_arg4) := (W4_of_ne m ρ c main_arg4 (by decide)).trans (b3_arg4 m ρ c)
theorem b4_arg5 : W4 m ρ c (Proc.devRef .tc main_arg5) = m ((c : Thread nD τ).loc main_arg5) := (W4_of_ne m ρ c main_arg5 (by decide)).trans (b3_arg5 m ρ c)
theorem b4_arg6 : W4 m ρ c (Proc.devRef .tc main_arg6) = m ((c : Thread nD τ).loc main_arg6) := (W4_of_ne m ρ c main_arg6 (by decide)).trans (b3_arg6 m ρ c)
theorem b4_arg7 : W4 m ρ c (Proc.devRef .tc main_arg7) = m ((c : Thread nD τ).loc main_arg7) := (W4_of_ne m ρ c main_arg7 (by decide)).trans (b3_arg7 m ρ c)
theorem b4_arg8 : W4 m ρ c (Proc.devRef .tc main_arg8) = m ((c : Thread nD τ).loc main_arg8) := (W4_of_ne m ρ c main_arg8 (by decide)).trans (b3_arg8 m ρ c)
theorem b4_arg9 : W4 m ρ c (Proc.devRef .tc main_arg9) = m ((c : Thread nD τ).loc main_arg9) := (W4_of_ne m ρ c main_arg9 (by decide)).trans (b3_arg9 m ρ c)

/-! ## After layer 1 -/

theorem b6_v48 : W6 m ρ c (Proc.devRef .tc main_v48) = act1 (m ((c : Thread nD τ).loc main_arg0)) (m ((c : Thread nD τ).loc main_arg1)) (m ((c : Thread nD τ).loc main_arg2)) (m ((c : Thread nD τ).loc main_arg3)) := by
  have h := Cert.Gcn.Host.layer1_out (W4 m ρ c)
  rw [b4_v5 m ρ c, b4_v6 m ρ c, b4_v30 m ρ c, b4_v31 m ρ c, b4_arg3 m ρ c] at h
  exact h
theorem b6_v5 : W6 m ρ c (Proc.devRef .tc main_v5) = srcOf (m ((c : Thread nD τ).loc main_arg1)) := (Cert.Gcn.Host.layer1_keep (W4 m ρ c) main_v5 (by decide)).trans (b4_v5 m ρ c)
theorem b6_v6 : W6 m ρ c (Proc.devRef .tc main_v6) = dstOf (m ((c : Thread nD τ).loc main_arg1)) := (Cert.Gcn.Host.layer1_keep (W4 m ρ c) main_v6 (by decide)).trans (b4_v6 m ρ c)
theorem b6_v30 : W6 m ρ c (Proc.devRef .tc main_v30) = normOf (srcOf (m ((c : Thread nD τ).loc main_arg1))) (dstOf (m ((c : Thread nD τ).loc main_arg1))) := (Cert.Gcn.Host.layer1_keep (W4 m ρ c) main_v30 (by decide)).trans (b4_v30 m ρ c)
theorem b6_arg4 : W6 m ρ c (Proc.devRef .tc main_arg4) = m ((c : Thread nD τ).loc main_arg4) := (Cert.Gcn.Host.layer1_keep (W4 m ρ c) main_arg4 (by decide)).trans (b4_arg4 m ρ c)
theorem b6_arg5 : W6 m ρ c (Proc.devRef .tc main_arg5) = m ((c : Thread nD τ).loc main_arg5) := (Cert.Gcn.Host.layer1_keep (W4 m ρ c) main_arg5 (by decide)).trans (b4_arg5 m ρ c)
theorem b6_arg6 : W6 m ρ c (Proc.devRef .tc main_arg6) = m ((c : Thread nD τ).loc main_arg6) := (Cert.Gcn.Host.layer1_keep (W4 m ρ c) main_arg6 (by decide)).trans (b4_arg6 m ρ c)
theorem b6_arg7 : W6 m ρ c (Proc.devRef .tc main_arg7) = m ((c : Thread nD τ).loc main_arg7) := (Cert.Gcn.Host.layer1_keep (W4 m ρ c) main_arg7 (by decide)).trans (b4_arg7 m ρ c)
theorem b6_arg8 : W6 m ρ c (Proc.devRef .tc main_arg8) = m ((c : Thread nD τ).loc main_arg8) := (Cert.Gcn.Host.layer1_keep (W4 m ρ c) main_arg8 (by decide)).trans (b4_arg8 m ρ c)
theorem b6_arg9 : W6 m ρ c (Proc.devRef .tc main_arg9) = m ((c : Thread nD τ).loc main_arg9) := (Cert.Gcn.Host.layer1_keep (W4 m ρ c) main_arg9 (by decide)).trans (b4_arg9 m ρ c)

/-! ## After product 2 -/

theorem b7_v49 : W7 m ρ c (Proc.devRef .tc main_v49) = mm128 (act1 (m ((c : Thread nD τ).loc main_arg0)) (m ((c : Thread nD τ).loc main_arg1)) (m ((c : Thread nD τ).loc main_arg2)) (m ((c : Thread nD τ).loc main_arg3))) (m ((c : Thread nD τ).loc main_arg4)) := by
  have h := (W7_arr m ρ c 2).trans (Cert.Gcn.Regions.final1 (V6 m ρ) c)
  rw [show V6 m ρ c main_v48 = act1 (m ((c : Thread nD τ).loc main_arg0)) (m ((c : Thread nD τ).loc main_arg1)) (m ((c : Thread nD τ).loc main_arg2)) (m ((c : Thread nD τ).loc main_arg3)) from b6_v48 m ρ c, show V6 m ρ c main_arg4 = m ((c : Thread nD τ).loc main_arg4) from b6_arg4 m ρ c] at h
  exact h
theorem b7_v5 : W7 m ρ c (Proc.devRef .tc main_v5) = srcOf (m ((c : Thread nD τ).loc main_arg1)) := (W7_of_ne m ρ c main_v5 (by decide)).trans (b6_v5 m ρ c)
theorem b7_v6 : W7 m ρ c (Proc.devRef .tc main_v6) = dstOf (m ((c : Thread nD τ).loc main_arg1)) := (W7_of_ne m ρ c main_v6 (by decide)).trans (b6_v6 m ρ c)
theorem b7_v30 : W7 m ρ c (Proc.devRef .tc main_v30) = normOf (srcOf (m ((c : Thread nD τ).loc main_arg1))) (dstOf (m ((c : Thread nD τ).loc main_arg1))) := (W7_of_ne m ρ c main_v30 (by decide)).trans (b6_v30 m ρ c)
theorem b7_arg5 : W7 m ρ c (Proc.devRef .tc main_arg5) = m ((c : Thread nD τ).loc main_arg5) := (W7_of_ne m ρ c main_arg5 (by decide)).trans (b6_arg5 m ρ c)
theorem b7_arg6 : W7 m ρ c (Proc.devRef .tc main_arg6) = m ((c : Thread nD τ).loc main_arg6) := (W7_of_ne m ρ c main_arg6 (by decide)).trans (b6_arg6 m ρ c)
theorem b7_arg7 : W7 m ρ c (Proc.devRef .tc main_arg7) = m ((c : Thread nD τ).loc main_arg7) := (W7_of_ne m ρ c main_arg7 (by decide)).trans (b6_arg7 m ρ c)
theorem b7_arg8 : W7 m ρ c (Proc.devRef .tc main_arg8) = m ((c : Thread nD τ).loc main_arg8) := (W7_of_ne m ρ c main_arg8 (by decide)).trans (b6_arg8 m ρ c)
theorem b7_arg9 : W7 m ρ c (Proc.devRef .tc main_arg9) = m ((c : Thread nD τ).loc main_arg9) := (W7_of_ne m ρ c main_arg9 (by decide)).trans (b6_arg9 m ρ c)

/-! ## After layer 2 -/

theorem b9_v66 : W9 m ρ c (Proc.devRef .tc main_v66) = act2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h := Cert.Gcn.Host.layer2_out (W7 m ρ c)
  rw [b7_v5 m ρ c, b7_v6 m ρ c, b7_v30 m ρ c, b7_v49 m ρ c, b7_arg5 m ρ c] at h
  exact h
theorem b9_v5 : W9 m ρ c (Proc.devRef .tc main_v5) = srcOf (m ((c : Thread nD τ).loc main_arg1)) := (Cert.Gcn.Host.layer2_keep (W7 m ρ c) main_v5 (by decide)).trans (b7_v5 m ρ c)
theorem b9_v6 : W9 m ρ c (Proc.devRef .tc main_v6) = dstOf (m ((c : Thread nD τ).loc main_arg1)) := (Cert.Gcn.Host.layer2_keep (W7 m ρ c) main_v6 (by decide)).trans (b7_v6 m ρ c)
theorem b9_v30 : W9 m ρ c (Proc.devRef .tc main_v30) = normOf (srcOf (m ((c : Thread nD τ).loc main_arg1))) (dstOf (m ((c : Thread nD τ).loc main_arg1))) := (Cert.Gcn.Host.layer2_keep (W7 m ρ c) main_v30 (by decide)).trans (b7_v30 m ρ c)
theorem b9_arg6 : W9 m ρ c (Proc.devRef .tc main_arg6) = m ((c : Thread nD τ).loc main_arg6) := (Cert.Gcn.Host.layer2_keep (W7 m ρ c) main_arg6 (by decide)).trans (b7_arg6 m ρ c)
theorem b9_arg7 : W9 m ρ c (Proc.devRef .tc main_arg7) = m ((c : Thread nD τ).loc main_arg7) := (Cert.Gcn.Host.layer2_keep (W7 m ρ c) main_arg7 (by decide)).trans (b7_arg7 m ρ c)
theorem b9_arg8 : W9 m ρ c (Proc.devRef .tc main_arg8) = m ((c : Thread nD τ).loc main_arg8) := (Cert.Gcn.Host.layer2_keep (W7 m ρ c) main_arg8 (by decide)).trans (b7_arg8 m ρ c)
theorem b9_arg9 : W9 m ρ c (Proc.devRef .tc main_arg9) = m ((c : Thread nD τ).loc main_arg9) := (Cert.Gcn.Host.layer2_keep (W7 m ρ c) main_arg9 (by decide)).trans (b7_arg9 m ρ c)

/-! ## After product 3 -/

theorem b10_v67 : W10 m ρ c (Proc.devRef .tc main_v67) = mm128 (act2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) := by
  have h := (W10_arr m ρ c 2).trans (Cert.Gcn.Regions.final2 (V9 m ρ) c)
  rw [show V9 m ρ c main_v66 = act2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) from b9_v66 m ρ c, show V9 m ρ c main_arg6 = m ((c : Thread nD τ).loc main_arg6) from b9_arg6 m ρ c] at h
  exact h
theorem b10_v5 : W10 m ρ c (Proc.devRef .tc main_v5) = srcOf (m ((c : Thread nD τ).loc main_arg1)) := (W10_of_ne m ρ c main_v5 (by decide)).trans (b9_v5 m ρ c)
theorem b10_v6 : W10 m ρ c (Proc.devRef .tc main_v6) = dstOf (m ((c : Thread nD τ).loc main_arg1)) := (W10_of_ne m ρ c main_v6 (by decide)).trans (b9_v6 m ρ c)
theorem b10_v30 : W10 m ρ c (Proc.devRef .tc main_v30) = normOf (srcOf (m ((c : Thread nD τ).loc main_arg1))) (dstOf (m ((c : Thread nD τ).loc main_arg1))) := (W10_of_ne m ρ c main_v30 (by decide)).trans (b9_v30 m ρ c)
theorem b10_arg7 : W10 m ρ c (Proc.devRef .tc main_arg7) = m ((c : Thread nD τ).loc main_arg7) := (W10_of_ne m ρ c main_arg7 (by decide)).trans (b9_arg7 m ρ c)
theorem b10_arg8 : W10 m ρ c (Proc.devRef .tc main_arg8) = m ((c : Thread nD τ).loc main_arg8) := (W10_of_ne m ρ c main_arg8 (by decide)).trans (b9_arg8 m ρ c)
theorem b10_arg9 : W10 m ρ c (Proc.devRef .tc main_arg9) = m ((c : Thread nD τ).loc main_arg9) := (W10_of_ne m ρ c main_arg9 (by decide)).trans (b9_arg9 m ρ c)

/-! ## After layer 3 -/

theorem b12_v84 : W12 m ρ c (Proc.devRef .tc main_v84) = act3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h := Cert.Gcn.Host.layer3_out (W10 m ρ c)
  rw [b10_v5 m ρ c, b10_v6 m ρ c, b10_v30 m ρ c, b10_v67 m ρ c, b10_arg7 m ρ c] at h
  exact h
theorem b12_arg8 : W12 m ρ c (Proc.devRef .tc main_arg8) = m ((c : Thread nD τ).loc main_arg8) := (Cert.Gcn.Host.layer3_keep (W10 m ρ c) main_arg8 (by decide)).trans (b10_arg8 m ρ c)
theorem b12_arg9 : W12 m ρ c (Proc.devRef .tc main_arg9) = m ((c : Thread nD τ).loc main_arg9) := (Cert.Gcn.Host.layer3_keep (W10 m ρ c) main_arg9 (by decide)).trans (b10_arg9 m ρ c)

/-! ## After product 4 -/

theorem b13_v85 : W13 m ρ c (Proc.devRef .tc main_v85) = mm40 (act3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) := by
  have h := (W13_arr m ρ c 2).trans (Cert.Gcn.Regions.final3 (V12 m ρ) c)
  rw [show V12 m ρ c main_v84 = act3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) from b12_v84 m ρ c, show V12 m ρ c main_arg8 = m ((c : Thread nD τ).loc main_arg8) from b12_arg8 m ρ c] at h
  exact h
theorem b13_arg9 : W13 m ρ c (Proc.devRef .tc main_arg9) = m ((c : Thread nD τ).loc main_arg9) := (W13_of_ne m ρ c main_arg9 (by decide)).trans (b12_arg9 m ρ c)

/-! ## The result -/

/-- The program's result buffer at the last boundary holds the network of the launch contents. -/
theorem b14_v88 : W14 m ρ c (Proc.devRef .tc main_v88) = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h := Cert.Gcn.Host.head_out (W13 m ρ c)
  rw [b13_v85 m ρ c, b13_arg9 m ρ c] at h
  exact h

end Cert.Gcn.Kernel

end
-- ==== Proof.RefRun.lean ====
/-
  The reference program's run, stretch by stretch.

  The reference is a straight line of host operations: the prologue that builds the endpoint lists and the edge
  weights, then three times a dense product followed by a layer's gather / scale / scatter-add / bias / clamp, then
  the output product and its bias. Its operations are listed here in the same stretches the kernel program's
  host operations fall into, the four dense products standing where the kernel launches its four regions. Every
  weakly fair execution terminates with every buffer at the fold of the operations over the launch contents.
-/
import proofs.«174328_j51780125721472_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The endpoint lists, the constant ones and zeros, the in-degree, its comparison with zero and its inverse square root. -/
abbrev rOps0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32) ]
theorem rOps0_sub : (rOps0 : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub ..⟩

/-- The choice between the inverse square root and zero (the outlined where). -/
abbrev rOps0_1 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]
theorem rOps0_1_sub : (rOps0_1 : List (HloOp τ sig (Elt F))).Forall fun op => op.bufs ⊆ tcRefs τ sig :=
  ⟨unary_bufs_sub .., unary_bufs_sub .., ternary_bufs_sub ..⟩

/-- The two gathers of the inverse square roots at the endpoints and their product: the edge weights. -/
abbrev rOps0_2 : List (HloOp τ sig (Elt F)) :=
  [ nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v5 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v5 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v5 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v7 main_v22 (mulf : (⟨S850000, .f32⟩ : BufTy).Contents (Elt F) → (⟨S850000, .f32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v6 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v6 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v6 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v14 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)) ]
theorem rOps0_2_sub : (rOps0_2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- Layer 1's dense product. -/
abbrev rDot1 : List (HloOp τ sig (Elt F)) :=
  [ binary main_arg0 main_arg2 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]
theorem rDot1_sub : (rDot1 : List (HloOp τ sig (Elt F))).Forall fun op => op.bufs ⊆ tcRefs τ sig :=
  binary_bufs_sub ..

/-- Layer 1 after its product: gather, scale, add up at the destinations, add the bias. -/
abbrev rOps1 : List (HloOp τ sig (Elt F)) :=
  [ unary main_v30 main_v32 (broadcastInDim S850000x1 ![0] bcast_S850000_S850000x1_0 : (⟨S850000, .f32⟩ : BufTy).Contents (Elt F) → (⟨S850000x1, .f32⟩ : BufTy).Contents (Elt F)),
    nullary main_c_6 (constantI S_ 32 0#32),
    unary main_c_6 main_v33 (broadcastInDim S850000 ![] bcast_S_S850000 : (⟨S_, .i32⟩ : BufTy).Contents (Elt F) → (⟨S850000, .i32⟩ : BufTy).Contents (Elt F)),
    binary main_v5 main_v33 main_v34 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v35 (broadcastInDim S850000 ![] bcast_S_S850000 : (⟨S_, .i32⟩ : BufTy).Contents (Elt F) → (⟨S850000, .i32⟩ : BufTy).Contents (Elt F)),
    binary main_v5 main_v35 main_v36 (addi : (⟨S850000, .i32⟩ : BufTy).Contents (Elt F) → (⟨S850000, .i32⟩ : BufTy).Contents (Elt F) → (⟨S850000, .i32⟩ : BufTy).Contents (Elt F)),
    ternary main_v34 main_v36 main_v5 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v37 main_v38 (broadcastInDim S850000x1 ![0] bcast_S850000_S850000x1_0 : (⟨S850000, .i32⟩ : BufTy).Contents (Elt F) → (⟨S850000x1, .i32⟩ : BufTy).Contents (Elt F)),
    binary main_v31 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v32 main_v40 (broadcastInDim S850000x128 ![0, 1] bcast_S850000x1_S850000x128_0_1 : (⟨S850000x1, .f32⟩ : BufTy).Contents (Elt F) → (⟨S850000x128, .f32⟩ : BufTy).Contents (Elt F)),
    binary main_v40 main_v39 main_v41 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v42 (broadcastInDim S50000x128 ![] bcast_S_S50000x128 : (⟨S_, .f32⟩ : BufTy).Contents (Elt F) → (⟨S50000x128, .f32⟩ : BufTy).Contents (Elt F)),
    unary main_v6 main_v43 (broadcastInDim S850000x1 ![0] bcast_S850000_S850000x1_0 : (⟨S850000, .i32⟩ : BufTy).Contents (Elt F) → (⟨S850000x1, .i32⟩ : BufTy).Contents (Elt F)),
    ternary main_v42 main_v43 main_v41 main_v44 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)) ]
theorem rOps1_sub : (rOps1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub ..⟩

/-- Layer 1's clamp at zero (the outlined relu). -/
abbrev rOps1_1 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v47) (TRef.of (T := ⟨S50000x128, .f32⟩) main_call1_v0) (TRef.of (T := ⟨S50000x128, .f32⟩) main_v48) maximumf ]
theorem rOps1_1_sub : (rOps1_1 : List (HloOp τ sig (Elt F))).Forall fun op => op.bufs ⊆ tcRefs τ sig :=
  ⟨nullary_bufs_sub .., unary_bufs_sub .., binary_bufs_sub ..⟩

/-- Layer 2's dense product. -/
abbrev rDot2 : List (HloOp τ sig (Elt F)) :=
  [ binary main_v48 main_arg4 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]
theorem rDot2_sub : (rDot2 : List (HloOp τ sig (Elt F))).Forall fun op => op.bufs ⊆ tcRefs τ sig :=
  binary_bufs_sub ..

/-- Layer 2 after its product. -/
abbrev rOps2 : List (HloOp τ sig (Elt F)) :=
  [ unary main_v30 main_v50 (broadcastInDim S850000x1 ![0] bcast_S850000_S850000x1_0 : (⟨S850000, .f32⟩ : BufTy).Contents (Elt F) → (⟨S850000x1, .f32⟩ : BufTy).Contents (Elt F)),
    nullary main_c_9 (constantI S_ 32 0#32),
    unary main_c_9 main_v51 (broadcastInDim S850000 ![] bcast_S_S850000 : (⟨S_, .i32⟩ : BufTy).Contents (Elt F) → (⟨S850000, .i32⟩ : BufTy).Contents (Elt F)),
    binary main_v5 main_v51 main_v52 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v53 (broadcastInDim S850000 ![] bcast_S_S850000 : (⟨S_, .i32⟩ : BufTy).Contents (Elt F) → (⟨S850000, .i32⟩ : BufTy).Contents (Elt F)),
    binary main_v5 main_v53 main_v54 (addi : (⟨S850000, .i32⟩ : BufTy).Contents (Elt F) → (⟨S850000, .i32⟩ : BufTy).Contents (Elt F) → (⟨S850000, .i32⟩ : BufTy).Contents (Elt F)),
    ternary main_v52 main_v54 main_v5 main_v55 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v55 main_v56 (broadcastInDim S850000x1 ![0] bcast_S850000_S850000x1_0 : (⟨S850000, .i32⟩ : BufTy).Contents (Elt F) → (⟨S850000x1, .i32⟩ : BufTy).Contents (Elt F)),
    binary main_v49 main_v56 main_v57 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v50 main_v58 (broadcastInDim S850000x128 ![0, 1] bcast_S850000x1_S850000x128_0_1 : (⟨S850000x1, .f32⟩ : BufTy).Contents (Elt F) → (⟨S850000x128, .f32⟩ : BufTy).Contents (Elt F)),
    binary main_v58 main_v57 main_v59 (mulf : (⟨S850000x128, .f32⟩ : BufTy).Contents (Elt F) → (⟨S850000x128, .f32⟩ : BufTy).Contents (Elt F) → (⟨S850000x128, .f32⟩ : BufTy).Contents (Elt F)),
    nullary main_cst_11 (constant S_ .f32 0x00000000#32),
    unary main_cst_11 main_v60 (broadcastInDim S50000x128 ![] bcast_S_S50000x128 : (⟨S_, .f32⟩ : BufTy).Contents (Elt F) → (⟨S50000x128, .f32⟩ : BufTy).Contents (Elt F)),
    unary main_v6 main_v61 (broadcastInDim S850000x1 ![0] bcast_S850000_S850000x1_0 : (⟨S850000, .i32⟩ : BufTy).Contents (Elt F) → (⟨S850000x1, .i32⟩ : BufTy).Contents (Elt F)),
    ternary main_v60 main_v61 main_v59 main_v62 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v63 (broadcastInDim S1x128 ![1] bcast_S128_S1x128_1 : (⟨S128, .f32⟩ : BufTy).Contents (Elt F) → (⟨S1x128, .f32⟩ : BufTy).Contents (Elt F)),
    unary main_v63 main_v64 (broadcastInDim S50000x128 ![0, 1] bcast_S1x128_S50000x128_0_1 : (⟨S1x128, .f32⟩ : BufTy).Contents (Elt F) → (⟨S50000x128, .f32⟩ : BufTy).Contents (Elt F)),
    binary main_v62 main_v64 main_v65 (addf : (⟨S50000x128, .f32⟩ : BufTy).Contents (Elt F) → (⟨S50000x128, .f32⟩ : BufTy).Contents (Elt F) → (⟨S50000x128, .f32⟩ : BufTy).Contents (Elt F)) ]
theorem rOps2_sub : (rOps2 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub ..⟩

/-- Layer 2's clamp at zero. -/
abbrev rOps2_1 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v65) (TRef.of (T := ⟨S50000x128, .f32⟩) main_call2_v0) (TRef.of (T := ⟨S50000x128, .f32⟩) main_v66) maximumf ]
theorem rOps2_1_sub : (rOps2_1 : List (HloOp τ sig (Elt F))).Forall fun op => op.bufs ⊆ tcRefs τ sig :=
  ⟨nullary_bufs_sub .., unary_bufs_sub .., binary_bufs_sub ..⟩

/-- Layer 3's dense product. -/
abbrev rDot3 : List (HloOp τ sig (Elt F)) :=
  [ binary main_v66 main_arg6 main_v67 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]
theorem rDot3_sub : (rDot3 : List (HloOp τ sig (Elt F))).Forall fun op => op.bufs ⊆ tcRefs τ sig :=
  binary_bufs_sub ..

/-- Layer 3 after its product. -/
abbrev rOps3 : List (HloOp τ sig (Elt F)) :=
  [ unary main_v30 main_v68 (broadcastInDim S850000x1 ![0] bcast_S850000_S850000x1_0 : (⟨S850000, .f32⟩ : BufTy).Contents (Elt F) → (⟨S850000x1, .f32⟩ : BufTy).Contents (Elt F)),
    nullary main_c_12 (constantI S_ 32 0#32),
    unary main_c_12 main_v69 (broadcastInDim S850000 ![] bcast_S_S850000 : (⟨S_, .i32⟩ : BufTy).Contents (Elt F) → (⟨S850000, .i32⟩ : BufTy).Contents (Elt F)),
    binary main_v5 main_v69 main_v70 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v71 (broadcastInDim S850000 ![] bcast_S_S850000 : (⟨S_, .i32⟩ : BufTy).Contents (Elt F) → (⟨S850000, .i32⟩ : BufTy).Contents (Elt F)),
    binary main_v5 main_v71 main_v72 (addi : (⟨S850000, .i32⟩ : BufTy).Contents (Elt F) → (⟨S850000, .i32⟩ : BufTy).Contents (Elt F) → (⟨S850000, .i32⟩ : BufTy).Contents (Elt F)),
    ternary main_v70 main_v72 main_v5 main_v73 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v73 main_v74 (broadcastInDim S850000x1 ![0] bcast_S850000_S850000x1_0 : (⟨S850000, .i32⟩ : BufTy).Contents (Elt F) → (⟨S850000x1, .i32⟩ : BufTy).Contents (Elt F)),
    binary main_v67 main_v74 main_v75 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v68 main_v76 (broadcastInDim S850000x128 ![0, 1] bcast_S850000x1_S850000x128_0_1 : (⟨S850000x1, .f32⟩ : BufTy).Contents (Elt F) → (⟨S850000x128, .f32⟩ : BufTy).Contents (Elt F)),
    binary main_v76 main_v75 main_v77 (mulf : (⟨S850000x128, .f32⟩ : BufTy).Contents (Elt F) → (⟨S850000x128, .f32⟩ : BufTy).Contents (Elt F) → (⟨S850000x128, .f32⟩ : BufTy).Contents (Elt F)),
    nullary main_cst_14 (constant S_ .f32 0x00000000#32),
    unary main_cst_14 main_v78 (broadcastInDim S50000x128 ![] bcast_S_S50000x128 : (⟨S_, .f32⟩ : BufTy).Contents (Elt F) → (⟨S50000x128, .f32⟩ : BufTy).Contents (Elt F)),
    unary main_v6 main_v79 (broadcastInDim S850000x1 ![0] bcast_S850000_S850000x1_0 : (⟨S850000, .i32⟩ : BufTy).Contents (Elt F) → (⟨S850000x1, .i32⟩ : BufTy).Contents (Elt F)),
    ternary main_v78 main_v79 main_v77 main_v80 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg7 main_v81 (broadcastInDim S1x128 ![1] bcast_S128_S1x128_1 : (⟨S128, .f32⟩ : BufTy).Contents (Elt F) → (⟨S1x128, .f32⟩ : BufTy).Contents (Elt F)),
    unary main_v81 main_v82 (broadcastInDim S50000x128 ![0, 1] bcast_S1x128_S50000x128_0_1 : (⟨S1x128, .f32⟩ : BufTy).Contents (Elt F) → (⟨S50000x128, .f32⟩ : BufTy).Contents (Elt F)),
    binary main_v80 main_v82 main_v83 (addf : (⟨S50000x128, .f32⟩ : BufTy).Contents (Elt F) → (⟨S50000x128, .f32⟩ : BufTy).Contents (Elt F) → (⟨S50000x128, .f32⟩ : BufTy).Contents (Elt F)) ]
theorem rOps3_sub : (rOps3 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub ..⟩

/-- Layer 3's clamp at zero. -/
abbrev rOps3_1 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v83) (TRef.of (T := ⟨S50000x128, .f32⟩) main_call3_v0) (TRef.of (T := ⟨S50000x128, .f32⟩) main_v84) maximumf ]
theorem rOps3_1_sub : (rOps3_1 : List (HloOp τ sig (Elt F))).Forall fun op => op.bufs ⊆ tcRefs τ sig :=
  ⟨nullary_bufs_sub .., unary_bufs_sub .., binary_bufs_sub ..⟩

/-- The output product. -/
abbrev rDot4 : List (HloOp τ sig (Elt F)) :=
  [ binary main_v84 main_arg8 main_v85 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)) ]
theorem rDot4_sub : (rDot4 : List (HloOp τ sig (Elt F))).Forall fun op => op.bufs ⊆ tcRefs τ sig :=
  binary_bufs_sub ..

/-- The output head: the bias added to every row. -/
abbrev rOps4 : List (HloOp τ sig (Elt F)) :=
  [ unary main_arg9 main_v86 (broadcastInDim S1x40 ![1] bcast_S40_S1x40_1 : (⟨S40, .f32⟩ : BufTy).Contents (Elt F) → (⟨S1x40, .f32⟩ : BufTy).Contents (Elt F)),
    unary main_v86 main_v87 (broadcastInDim S50000x40 ![0, 1] bcast_S1x40_S50000x40_0_1 : (⟨S1x40, .f32⟩ : BufTy).Contents (Elt F) → (⟨S50000x40, .f32⟩ : BufTy).Contents (Elt F)),
    binary main_v85 main_v87 main_v88 (addf : (⟨S50000x40, .f32⟩ : BufTy).Contents (Elt F) → (⟨S50000x40, .f32⟩ : BufTy).Contents (Elt F) → (⟨S50000x40, .f32⟩ : BufTy).Contents (Elt F)) ]
theorem rOps4_sub : (rOps4 : List (HloOp τ sig (Elt F))).Forall fun op => op.bufs ⊆ tcRefs τ sig :=
  ⟨unary_bufs_sub .., unary_bufs_sub .., binary_bufs_sub ..⟩

/-- @main's operations, in order: the stretches one after the other. -/
abbrev ops : List (HloOp τ sig (Elt F)) :=
  rOps0 ++ rOps0_1 ++ rOps0_2 ++ rDot1 ++ rOps1 ++ rOps1_1 ++ rDot2 ++ rOps2 ++ rOps2_1 ++ rDot3 ++ rOps3 ++ rOps3_1 ++ rDot4 ++ rOps4

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  (List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨rOps0_sub, rOps0_1_sub⟩), rOps0_2_sub⟩), rDot1_sub⟩), rOps1_sub⟩), rOps1_1_sub⟩), rDot2_sub⟩), rOps2_sub⟩), rOps2_1_sub⟩), rDot3_sub⟩), rOps3_sub⟩), rOps3_1_sub⟩), rDot4_sub⟩), rOps4_sub⟩)

set_option maxRecDepth 8192 in
set_option maxHeartbeats 4000000 in
/-- From any memory with zero counters every weakly fair execution of @main terminates with each buffer at the fold
    of the operations over the launch contents. -/
theorem raw_run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ

end Cert.ReferenceIdeal.Hand

end
-- ==== Proof.LibAfterConcat.lean ====
/-
  The fold of a line of host operations over two lines in a row (a general lemma file; nothing here mentions a
  particular program).

  `StableHlo.after ops V` is what the buffers hold once the operations `ops` have run in order from contents `V`.
  Running `l₁ ++ l₂` is running `l₁` and then `l₂` from what `l₁` left: this is what lets a long line be read piece
  by piece.
-/
import Idealize.ShloMosaic.Lib.StableHlo.Run

noncomputable section

namespace Cert.AfterConcat

open Idealize.ShloMosaic Idealize.ShloMosaic.StableHlo

variable {τ : Topo} {sig : RefSig} {Val : EltTy → Type}

/-- The fold over two lines in a row is the second's fold over the first's. -/
theorem after_concat (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

end Cert.AfterConcat

end
-- ==== Proof.RefHostLayers.lean ====
/-
  The reference program's stretches after each dense product, read as whole-array functions.

  After the k-th dense product (k = 1, 2, 3) the reference runs nineteen operations and then an outlined clamp of
  three: the edge weights made a column and spread over the 128 feature columns; the source list with a negative node
  number moved up by the node count 50000, made a column; the rows of the product gathered at the sources; the
  gathered rows scaled edge by edge; a zero array of the output's shape; the destination list made a column; the
  scaled rows added up at their destinations into the zero array; the bias made a row, spread down the 50000 rows,
  and added; then the zero scalar spread over the shape and the entrywise maximum with it. Each operation writes a
  buffer of its own and reads buffers written before it or left from earlier stretches, so the buffer the clamp writes
  holds the composition of the operations' functions at what the stretch found in the endpoint lists, the edge
  weights, the product and the bias: the function `layer`.

  After the fourth product the head is three operations: the bias made a row, spread down the rows, and added: `head`.
-/
import proofs.«174328_j51780125721472_1_alg».proof.Proof.RefRun
import proofs.«174328_j51780125721472_1_alg».proof.Proof.Stages

set_option maxRecDepth 8192

noncomputable section

namespace Cert.Gcn.RefHost

open Idealize.ShloMosaic Idealize.ShloMosaic.StableHlo Cert.ReferenceIdeal Cert.ReferenceIdeal.Gen Cert.ReferenceIdeal.Hand

variable {F : FTy → Type} [FloatOps F]
variable (W : Valuation τ sig (Elt F))

set_option maxHeartbeats 1000000 in
/-- Layer 1: the clamp's buffer after the two stretches is `layer` of the endpoint lists, the edge weights, the
    first product and the first bias as the stretches found them. -/
theorem layer1_out : after rOps1_1 (after rOps1 W) (Proc.devRef .tc main_v48)
    = Cert.Gcn.layer (W (Proc.devRef .tc main_v5)) (W (Proc.devRef .tc main_v6)) (W (Proc.devRef .tc main_v30))
        (W (Proc.devRef .tc main_v31)) (W (Proc.devRef .tc main_arg3)) := by
  after_results_simp
  rfl

set_option maxHeartbeats 1000000 in
/-- Layer 2: the same operations on the second product and the second bias. -/
theorem layer2_out : after rOps2_1 (after rOps2 W) (Proc.devRef .tc main_v66)
    = Cert.Gcn.layer (W (Proc.devRef .tc main_v5)) (W (Proc.devRef .tc main_v6)) (W (Proc.devRef .tc main_v30))
        (W (Proc.devRef .tc main_v49)) (W (Proc.devRef .tc main_arg5)) := by
  after_results_simp
  rfl

set_option maxHeartbeats 1000000 in
/-- Layer 3: the same operations on the third product and the third bias. -/
theorem layer3_out : after rOps3_1 (after rOps3 W) (Proc.devRef .tc main_v84)
    = Cert.Gcn.layer (W (Proc.devRef .tc main_v5)) (W (Proc.devRef .tc main_v6)) (W (Proc.devRef .tc main_v30))
        (W (Proc.devRef .tc main_v67)) (W (Proc.devRef .tc main_arg7)) := by
  after_results_simp
  rfl

/-- The head: the output bias added to every row of the fourth product. -/
theorem head_out : after rOps4 W (Proc.devRef .tc main_v88)
    = Cert.Gcn.head (W (Proc.devRef .tc main_v85)) (W (Proc.devRef .tc main_arg9)) := by
  after_results_simp
  rfl

end Cert.Gcn.RefHost

end
-- ==== Proof.RefHostKept.lean ====
/-
  What a stretch of host operations leaves alone.

  Every host operation writes one buffer, its result's, and no other. So a stretch changes only the buffers in the
  list of its operations' results, and any reference outside that list holds after the stretch what it held before.
  Below, for each stretch, is the list of the references it writes, the fact that every operation's written set lies
  in it, and the consequence for a reference outside the list. The stretches around one dense product are then put
  together: the endpoint lists, the edge weights, and the weights and biases of the later layers pass through a
  layer's stretches unchanged, and the arguments other than the edge list pass through the stretches before the
  first product unchanged.
-/
import proofs.«174328_j51780125721472_1_alg».proof.Proof.RefRun

set_option maxRecDepth 8192

noncomputable section

namespace Cert.Gcn.RefHost

open Idealize.ShloMosaic Idealize.ShloMosaic.StableHlo Cert.ReferenceIdeal Cert.ReferenceIdeal.Gen Cert.ReferenceIdeal.Hand

variable {F : FTy → Type} [FloatOps F]

/-- Every operation of a literal stretch writes inside a literal list of references: operation by operation, the one
    buffer it writes is its result's, and that reference is found in the list. -/
local macro "writes_in_list" : tactic =>
  `(tactic| (simp only [List.Forall]
             repeat' apply And.intro
             all_goals
               (simp only [nullary_writes, unary_writes, binary_writes, ternary_writes, reshape_writes,
                  Finset.singleton_subset_iff, List.mem_toFinset]
                exact List.mem_map_of_mem (by decide))))

/-! ## The references each stretch writes -/

/-- Written before the first product, first stretch: the two rows of the edge list, the node numbers, the endpoint
    lists, the ones and zeros, the degree, its positivity mask and its inverse square root. -/
abbrev written0 : List (Ref sig .tc) :=
  [main_v0, main_v1, main_v2, main_v3, main_v4, main_v5, main_v6, main_cst, main_v7, main_cst_0, main_v8, main_v9,
   main_v10, main_cst_1, main_v11, main_v12, main_v13, main_cst_2]
/-- Written by the outlined choice between the inverse square root and zero. -/
abbrev written0_1 : List (Ref sig .tc) := [main_call0_v0, main_call0_v1, main_v14]
/-- Written by the stretch that forms the edge weights. -/
abbrev written0_2 : List (Ref sig .tc) :=
  [main_c, main_v15, main_v16, main_c_3, main_v17, main_v18, main_v19, main_v20, main_v21, main_v22, main_c_4, main_v23,
   main_v24, main_c_5, main_v25, main_v26, main_v27, main_v28, main_v29, main_v30]
/-- Written by layer 1's nineteen operations, and by its clamp. -/
abbrev written1 : List (Ref sig .tc) :=
  [main_v32, main_c_6, main_v33, main_v34, main_c_7, main_v35, main_v36, main_v37, main_v38, main_v39, main_v40, main_v41,
   main_cst_8, main_v42, main_v43, main_v44, main_v45, main_v46, main_v47]
abbrev written1_1 : List (Ref sig .tc) := [main_call1_cst, main_call1_v0, main_v48]
/-- Written by layer 2's nineteen operations, and by its clamp. -/
abbrev written2 : List (Ref sig .tc) :=
  [main_v50, main_c_9, main_v51, main_v52, main_c_10, main_v53, main_v54, main_v55, main_v56, main_v57, main_v58, main_v59,
   main_cst_11, main_v60, main_v61, main_v62, main_v63, main_v64, main_v65]
abbrev written2_1 : List (Ref sig .tc) := [main_call2_cst, main_call2_v0, main_v66]
/-- Written by layer 3's nineteen operations, and by its clamp. -/
abbrev written3 : List (Ref sig .tc) :=
  [main_v68, main_c_12, main_v69, main_v70, main_c_13, main_v71, main_v72, main_v73, main_v74, main_v75, main_v76, main_v77,
   main_cst_14, main_v78, main_v79, main_v80, main_v81, main_v82, main_v83]
abbrev written3_1 : List (Ref sig .tc) := [main_call3_cst, main_call3_v0, main_v84]
/-- Written by the head. -/
abbrev written4 : List (Ref sig .tc) := [main_v86, main_v87, main_v88]

theorem writes0 : (rOps0 : List (HloOp τ sig (Elt F))).Forall fun op =>
    op.writes ⊆ (written0.map (Proc.devRef (τ := τ) .tc)).toFinset := by writes_in_list
theorem writes0_1 : (rOps0_1 : List (HloOp τ sig (Elt F))).Forall fun op =>
    op.writes ⊆ (written0_1.map (Proc.devRef (τ := τ) .tc)).toFinset := by writes_in_list
theorem writes0_2 : (rOps0_2 : List (HloOp τ sig (Elt F))).Forall fun op =>
    op.writes ⊆ (written0_2.map (Proc.devRef (τ := τ) .tc)).toFinset := by writes_in_list
theorem writes1 : (rOps1 : List (HloOp τ sig (Elt F))).Forall fun op =>
    op.writes ⊆ (written1.map (Proc.devRef (τ := τ) .tc)).toFinset := by writes_in_list
theorem writes1_1 : (rOps1_1 : List (HloOp τ sig (Elt F))).Forall fun op =>
    op.writes ⊆ (written1_1.map (Proc.devRef (τ := τ) .tc)).toFinset := by writes_in_list
theorem writes2 : (rOps2 : List (HloOp τ sig (Elt F))).Forall fun op =>
    op.writes ⊆ (written2.map (Proc.devRef (τ := τ) .tc)).toFinset := by writes_in_list
theorem writes2_1 : (rOps2_1 : List (HloOp τ sig (Elt F))).Forall fun op =>
    op.writes ⊆ (written2_1.map (Proc.devRef (τ := τ) .tc)).toFinset := by writes_in_list
theorem writes3 : (rOps3 : List (HloOp τ sig (Elt F))).Forall fun op =>
    op.writes ⊆ (written3.map (Proc.devRef (τ := τ) .tc)).toFinset := by writes_in_list
theorem writes3_1 : (rOps3_1 : List (HloOp τ sig (Elt F))).Forall fun op =>
    op.writes ⊆ (written3_1.map (Proc.devRef (τ := τ) .tc)).toFinset := by writes_in_list
theorem writes4 : (rOps4 : List (HloOp τ sig (Elt F))).Forall fun op =>
    op.writes ⊆ (written4.map (Proc.devRef (τ := τ) .tc)).toFinset := by writes_in_list

variable (W : Valuation τ sig (Elt F))

/-! ## A reference outside a stretch's list keeps its contents -/

theorem keep0 (r : Ref sig .tc) (h : r ∉ written0) : after rOps0 W (Proc.devRef .tc r) = W (Proc.devRef .tc r) :=
  after_of_writes_sub rOps0 W writes0 h
theorem keep0_1 (r : Ref sig .tc) (h : r ∉ written0_1) : after rOps0_1 W (Proc.devRef .tc r) = W (Proc.devRef .tc r) :=
  after_of_writes_sub rOps0_1 W writes0_1 h
theorem keep0_2 (r : Ref sig .tc) (h : r ∉ written0_2) : after rOps0_2 W (Proc.devRef .tc r) = W (Proc.devRef .tc r) :=
  after_of_writes_sub rOps0_2 W writes0_2 h
theorem keep1 (r : Ref sig .tc) (h : r ∉ written1) : after rOps1 W (Proc.devRef .tc r) = W (Proc.devRef .tc r) :=
  after_of_writes_sub rOps1 W writes1 h
theorem keep1_1 (r : Ref sig .tc) (h : r ∉ written1_1) : after rOps1_1 W (Proc.devRef .tc r) = W (Proc.devRef .tc r) :=
  after_of_writes_sub rOps1_1 W writes1_1 h
theorem keep2 (r : Ref sig .tc) (h : r ∉ written2) : after rOps2 W (Proc.devRef .tc r) = W (Proc.devRef .tc r) :=
  after_of_writes_sub rOps2 W writes2 h
theorem keep2_1 (r : Ref sig .tc) (h : r ∉ written2_1) : after rOps2_1 W (Proc.devRef .tc r) = W (Proc.devRef .tc r) :=
  after_of_writes_sub rOps2_1 W writes2_1 h
theorem keep3 (r : Ref sig .tc) (h : r ∉ written3) : after rOps3 W (Proc.devRef .tc r) = W (Proc.devRef .tc r) :=
  after_of_writes_sub rOps3 W writes3 h
theorem keep3_1 (r : Ref sig .tc) (h : r ∉ written3_1) : after rOps3_1 W (Proc.devRef .tc r) = W (Proc.devRef .tc r) :=
  after_of_writes_sub rOps3_1 W writes3_1 h
theorem keep4 (r : Ref sig .tc) (h : r ∉ written4) : after rOps4 W (Proc.devRef .tc r) = W (Proc.devRef .tc r) :=
  after_of_writes_sub rOps4 W writes4 h

/-! ## The stretches around one product, put together -/

/-- The three stretches before the first product change no reference outside their three lists. -/
theorem pro_keep_of (r : Ref sig .tc) (h0 : r ∉ written0) (h1 : r ∉ written0_1) (h2 : r ∉ written0_2) :
    after rOps0_2 (after rOps0_1 (after rOps0 W)) (Proc.devRef .tc r) = W (Proc.devRef .tc r) :=
  (keep0_2 _ r h2).trans ((keep0_1 _ r h1).trans (keep0 W r h0))

/-- The features, the weights and the biases pass through the stretches before the first product unchanged. -/
theorem pro_keep (b : Ref sig .tc)
    (hb : b ∈ [main_arg0, main_arg2, main_arg3, main_arg4, main_arg5, main_arg6, main_arg7, main_arg8, main_arg9]) :
    after rOps0_2 (after rOps0_1 (after rOps0 W)) (Proc.devRef .tc b) = W (Proc.devRef .tc b) :=
  pro_keep_of W b
    ((by decide : ∀ r ∈ [main_arg0, main_arg2, main_arg3, main_arg4, main_arg5, main_arg6, main_arg7, main_arg8, main_arg9], r ∉ written0) b hb)
    ((by decide : ∀ r ∈ [main_arg0, main_arg2, main_arg3, main_arg4, main_arg5, main_arg6, main_arg7, main_arg8, main_arg9], r ∉ written0_1) b hb)
    ((by decide : ∀ r ∈ [main_arg0, main_arg2, main_arg3, main_arg4, main_arg5, main_arg6, main_arg7, main_arg8, main_arg9], r ∉ written0_2) b hb)

/-- Layer 1's two stretches change no reference outside their two lists. -/
theorem layer1_keep_of (r : Ref sig .tc) (h0 : r ∉ written1) (h1 : r ∉ written1_1) :
    after rOps1_1 (after rOps1 W) (Proc.devRef .tc r) = W (Proc.devRef .tc r) :=
  (keep1_1 _ r h1).trans (keep1 W r h0)

/-- The endpoint lists, the edge weights and the later layers' weights and biases pass through layer 1 unchanged. -/
theorem layer1_keep (b : Ref sig .tc)
    (hb : b ∈ [main_v5, main_v6, main_v30, main_arg4, main_arg5, main_arg6, main_arg7, main_arg8, main_arg9]) :
    after rOps1_1 (after rOps1 W) (Proc.devRef .tc b) = W (Proc.devRef .tc b) :=
  layer1_keep_of W b
    ((by decide : ∀ r ∈ [main_v5, main_v6, main_v30, main_arg4, main_arg5, main_arg6, main_arg7, main_arg8, main_arg9], r ∉ written1) b hb)
    ((by decide : ∀ r ∈ [main_v5, main_v6, main_v30, main_arg4, main_arg5, main_arg6, main_arg7, main_arg8, main_arg9], r ∉ written1_1) b hb)

/-- Layer 2's two stretches change no reference outside their two lists. -/
theorem layer2_keep_of (r : Ref sig .tc) (h0 : r ∉ written2) (h1 : r ∉ written2_1) :
    after rOps2_1 (after rOps2 W) (Proc.devRef .tc r) = W (Proc.devRef .tc r) :=
  (keep2_1 _ r h1).trans (keep2 W r h0)

/-- The endpoint lists, the edge weights and the later layers' weights and biases pass through layer 2 unchanged. -/
theorem layer2_keep (b : Ref sig .tc)
    (hb : b ∈ [main_v5, main_v6, main_v30, main_arg6, main_arg7, main_arg8, main_arg9]) :
    after rOps2_1 (after rOps2 W) (Proc.devRef .tc b) = W (Proc.devRef .tc b) :=
  layer2_keep_of W b
    ((by decide : ∀ r ∈ [main_v5, main_v6, main_v30, main_arg6, main_arg7, main_arg8, main_arg9], r ∉ written2) b hb)
    ((by decide : ∀ r ∈ [main_v5, main_v6, main_v30, main_arg6, main_arg7, main_arg8, main_arg9], r ∉ written2_1) b hb)

/-- Layer 3's two stretches change no reference outside their two lists. -/
theorem layer3_keep_of (r : Ref sig .tc) (h0 : r ∉ written3) (h1 : r ∉ written3_1) :
    after rOps3_1 (after rOps3 W) (Proc.devRef .tc r) = W (Proc.devRef .tc r) :=
  (keep3_1 _ r h1).trans (keep3 W r h0)

/-- The output weight and bias pass through layer 3 unchanged. -/
theorem layer3_keep (b : Ref sig .tc) (hb : b ∈ [main_arg8, main_arg9]) :
    after rOps3_1 (after rOps3 W) (Proc.devRef .tc b) = W (Proc.devRef .tc b) :=
  layer3_keep_of W b
    ((by decide : ∀ r ∈ [main_arg8, main_arg9], r ∉ written3) b hb)
    ((by decide : ∀ r ∈ [main_arg8, main_arg9], r ∉ written3_1) b hb)

end Cert.Gcn.RefHost

end
-- ==== Proof.RefProducts.lean ====
/-
  The reference's four dense products, read as whole-array functions.

  Where the kernel program runs a tiled product, the reference has one operation: the contraction of the second
  axis of the activations with the first axis of the weight, written to the product's buffer. Such a one-operation
  stretch leaves the product's buffer at `mm128` (for the output head `mm40`) of what the stretch found in the
  activations' and the weight's buffers, and changes no other buffer.
-/
import proofs.«174328_j51780125721472_1_alg».proof.Proof.RefRun
import proofs.«174328_j51780125721472_1_alg».proof.Proof.Stages

set_option maxRecDepth 8192

noncomputable section

namespace Cert.Gcn.RefHost

open Idealize.ShloMosaic Idealize.ShloMosaic.StableHlo
open Cert.ReferenceIdeal Cert.ReferenceIdeal.Gen Cert.ReferenceIdeal.Hand

variable {F : FTy → Type} [FloatOps F]
variable (W : Valuation τ sig (Elt F))

/-- The first product: the node features against the first weight. -/
theorem dot1_out : after rDot1 W (Proc.devRef .tc main_v31)
    = Cert.Gcn.mm128 (W (Proc.devRef .tc main_arg0)) (W (Proc.devRef .tc main_arg2)) := by
  rw [after_cons, after_nil, binary_result]
  rfl

/-- The second product: layer 1's activations against the second weight. -/
theorem dot2_out : after rDot2 W (Proc.devRef .tc main_v49)
    = Cert.Gcn.mm128 (W (Proc.devRef .tc main_v48)) (W (Proc.devRef .tc main_arg4)) := by
  rw [after_cons, after_nil, binary_result]
  rfl

/-- The third product: layer 2's activations against the third weight. -/
theorem dot3_out : after rDot3 W (Proc.devRef .tc main_v67)
    = Cert.Gcn.mm128 (W (Proc.devRef .tc main_v66)) (W (Proc.devRef .tc main_arg6)) := by
  rw [after_cons, after_nil, binary_result]
  rfl

/-- The output product: layer 3's activations against the output weight. -/
theorem dot4_out : after rDot4 W (Proc.devRef .tc main_v85)
    = Cert.Gcn.mm40 (W (Proc.devRef .tc main_v84)) (W (Proc.devRef .tc main_arg8)) := by
  rw [after_cons, after_nil, binary_result]
  rfl

/-- A product writes its own buffer only: any other reference keeps its contents. -/
theorem dot1_keep (r : Ref sig .tc) (h : r ≠ main_v31) : after rDot1 W (Proc.devRef .tc r) = W (Proc.devRef .tc r) := by
  rw [after_cons, after_nil, binary_result_ne]
  exact h

theorem dot2_keep (r : Ref sig .tc) (h : r ≠ main_v49) : after rDot2 W (Proc.devRef .tc r) = W (Proc.devRef .tc r) := by
  rw [after_cons, after_nil, binary_result_ne]
  exact h

theorem dot3_keep (r : Ref sig .tc) (h : r ≠ main_v67) : after rDot3 W (Proc.devRef .tc r) = W (Proc.devRef .tc r) := by
  rw [after_cons, after_nil, binary_result_ne]
  exact h

theorem dot4_keep (r : Ref sig .tc) (h : r ≠ main_v85) : after rDot4 W (Proc.devRef .tc r) = W (Proc.devRef .tc r) := by
  rw [after_cons, after_nil, binary_result_ne]
  exact h

end Cert.Gcn.RefHost

end
-- ==== Proof.RefHostPrologue.lean ====
/-
  The reference program's stretches before the first dense product, read as whole-array functions of the edge list.

  Three stretches run before the first product; together they are forty-one operations, each writing a buffer of its
  own.
    * The first takes the two rows of the edge list (a slice of one row, reshaped to a vector), lists the node numbers
      0 … 49999, and appends the node numbers to each row: the source list and the destination list, every node
      having an edge to itself. It then adds up a one for every edge at the edge's destination, starting from zeros:
      the in-degree of every node. It compares the degree with zero and takes its inverse square root.
    * The second, an outlined choice, keeps the inverse square root where the degree is positive and puts zero elsewhere.
    * The third moves a negative node number up by the node count in each endpoint list, gathers the chosen value at
      the sources and at the destinations, and multiplies: source value times one, times destination value.
  So after the three stretches the source and destination buffers hold `srcOf` and `dstOf` of the edge list as the
  stretches found it, and the edge-weight buffer holds `normOf` of those two lists.

  Each statement is read off in two passes. One pass replaces every operation's result, at the buffer the operation
  writes, by the operation's function of what its operands' buffers held, and at any other buffer by what was there;
  it visits each shared intermediate once, but it does not enter the list of sized pieces an append takes. The
  second pass does the same replacement, one occurrence at a time, for the reads left inside those lists. What is
  left are the same functions composed in the same order on both sides.
-/
import proofs.«174328_j51780125721472_1_alg».proof.Proof.RefRun
import proofs.«174328_j51780125721472_1_alg».proof.Proof.Stages

set_option maxRecDepth 8192

noncomputable section

namespace Cert.Gcn.RefHost

open Idealize.ShloMosaic Idealize.ShloMosaic.StableHlo Cert.ReferenceIdeal Cert.ReferenceIdeal.Gen Cert.ReferenceIdeal.Hand

variable {F : FTy → Type} [FloatOps F]
variable (W : Valuation τ sig (Elt F))

/-- The second pass: an operation's result at its own buffer is its function's value, at another reference what was
    there (the two references told apart by computation), one occurrence at a time until none is left. -/
local macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

set_option maxHeartbeats 1000000 in
/-- The source list: row 0 of the edge list, then every node once. The two later stretches do not write it. -/
theorem pro_src : after rOps0_2 (after rOps0_1 (after rOps0 W)) (Proc.devRef .tc main_v5)
    = Cert.Gcn.srcOf (W (Proc.devRef .tc main_arg1)) := by
  after_results_simp
  results_rw
  rfl

set_option maxHeartbeats 1000000 in
/-- The destination list: row 1 of the edge list, then every node once. The two later stretches do not write it. -/
theorem pro_dst : after rOps0_2 (after rOps0_1 (after rOps0 W)) (Proc.devRef .tc main_v6)
    = Cert.Gcn.dstOf (W (Proc.devRef .tc main_arg1)) := by
  after_results_simp
  results_rw
  rfl

set_option maxHeartbeats 2000000 in
/-- The edge weights: the inverse square root of the in-degree (zero where the degree is not positive) gathered at
    the sources, times one, times the same gathered at the destinations. -/
theorem pro_norm : after rOps0_2 (after rOps0_1 (after rOps0 W)) (Proc.devRef .tc main_v30)
    = Cert.Gcn.normOf (Cert.Gcn.srcOf (W (Proc.devRef .tc main_arg1))) (Cert.Gcn.dstOf (W (Proc.devRef .tc main_arg1))) := by
  after_results_simp
  results_rw
  rfl

end Cert.Gcn.RefHost

end
-- ==== Proof.RefValue.lean ====
/-
  The reference program's result as one function of its arguments.

  The reference's operations run in fourteen stretches: three that build the endpoint lists and the edge weights from
  the edge list, then three times a dense product and a layer (gather, scale, add up at the destinations, bias, clamp),
  then the output product and its bias. The contents after the whole line are the contents after the last stretch run
  from what the stretches before it left, so the line is read boundary by boundary. At each boundary a few buffers
  matter: the endpoint lists and the edge weights (written once, before the first product, and never again), the
  current activations or product, and the weights and biases not yet used (arguments, which no operation writes).
  After the stretches before the first product the three edge buffers hold `srcOf`, `dstOf`, `normOf` of the edge
  list; each product step holds `mm128` (at the end `mm40`) of the activations before it and its weight; each layer
  holds `layer` of the edge buffers, the product and its bias, which is `act1`, `act2`, `act3` by definition; the last
  stretch holds `head` of the output product and its bias, which is `gcn`. No stretch writes an argument.
-/
import proofs.«174328_j51780125721472_1_alg».proof.Proof.RefRun
import proofs.«174328_j51780125721472_1_alg».proof.Proof.Stages
import proofs.«174328_j51780125721472_1_alg».proof.Proof.LibAfterConcat
import proofs.«174328_j51780125721472_1_alg».proof.Proof.RefHostLayers
import proofs.«174328_j51780125721472_1_alg».proof.Proof.RefHostKept
import proofs.«174328_j51780125721472_1_alg».proof.Proof.RefProducts
import proofs.«174328_j51780125721472_1_alg».proof.Proof.RefHostPrologue

set_option maxRecDepth 8192

noncomputable section

namespace Cert.Gcn.Ref

open Idealize.ShloMosaic Idealize.ShloMosaic.StableHlo Idealize.ShloMosaic.TcCoe Idealize.SL.Sem
open Cert.ReferenceIdeal Cert.ReferenceIdeal.Gen Cert.ReferenceIdeal.Hand Cert.Gcn.RefHost

/-- Fourteen lines in a row, read one after the other. -/
theorem after_line14 {τ : Topo} {sig : RefSig} {Val : EltTy → Type}
    (l0 l1 l2 l3 l4 l5 l6 l7 l8 l9 l10 l11 l12 l13 : List (HloOp τ sig Val)) (V : Valuation τ sig Val) :
    after (l0 ++ l1 ++ l2 ++ l3 ++ l4 ++ l5 ++ l6 ++ l7 ++ l8 ++ l9 ++ l10 ++ l11 ++ l12 ++ l13) V
      = after l13 (after l12 (after l11 (after l10 (after l9 (after l8 (after l7 (after l6 (after l5 (after l4 (after l3
          (after l2 (after l1 (after l0 V))))))))))))) := by
  simp only [Cert.AfterConcat.after_concat]

variable {F : FTy → Type} [FloatOps F]
variable (V : Valuation τ sig (Elt F))

/-! ## The contents at the boundaries -/

/-- After the stretches before the first product. -/
def atPro : Valuation τ sig (Elt F) := after rOps0_2 (after rOps0_1 (after rOps0 V))
/-- After layer 1's product. -/
def atDot1 : Valuation τ sig (Elt F) := after rDot1 (atPro V)
/-- After layer 1. -/
def atAct1 : Valuation τ sig (Elt F) := after rOps1_1 (after rOps1 (atDot1 V))
/-- After layer 2's product. -/
def atDot2 : Valuation τ sig (Elt F) := after rDot2 (atAct1 V)
/-- After layer 2. -/
def atAct2 : Valuation τ sig (Elt F) := after rOps2_1 (after rOps2 (atDot2 V))
/-- After layer 3's product. -/
def atDot3 : Valuation τ sig (Elt F) := after rDot3 (atAct2 V)
/-- After layer 3. -/
def atAct3 : Valuation τ sig (Elt F) := after rOps3_1 (after rOps3 (atDot3 V))
/-- After the output product. -/
def atDot4 : Valuation τ sig (Elt F) := after rDot4 (atAct3 V)
/-- After the head: the end of the line. -/
def atEnd : Valuation τ sig (Elt F) := after rOps4 (atDot4 V)

/-- The whole line leaves what the last boundary holds. -/
theorem ops_eq : after (ops (F := F)) V = atEnd V :=
  after_line14 rOps0 rOps0_1 rOps0_2 rDot1 rOps1 rOps1_1 rDot2 rOps2 rOps2_1 rDot3 rOps3 rOps3_1 rDot4 rOps4 V

/-! ## Before the first product -/

theorem Pro_src : atPro V (Proc.devRef .tc main_v5) = Cert.Gcn.srcOf (V (Proc.devRef .tc main_arg1)) := pro_src V
theorem Pro_dst : atPro V (Proc.devRef .tc main_v6) = Cert.Gcn.dstOf (V (Proc.devRef .tc main_arg1)) := pro_dst V
theorem Pro_norm : atPro V (Proc.devRef .tc main_v30) = Cert.Gcn.normOf (Cert.Gcn.srcOf (V (Proc.devRef .tc main_arg1))) (Cert.Gcn.dstOf (V (Proc.devRef .tc main_arg1))) := pro_norm V
theorem Pro_arg (b : Ref sig .tc) (hb : b ∈ [main_arg0, main_arg2, main_arg3, main_arg4, main_arg5, main_arg6, main_arg7, main_arg8, main_arg9]) : atPro V (Proc.devRef .tc b) = V (Proc.devRef .tc b) :=
  pro_keep V b hb

/-! ## Layer 1 -/

theorem Dot1_src : atDot1 V (Proc.devRef .tc main_v5) = Cert.Gcn.srcOf (V (Proc.devRef .tc main_arg1)) :=
  (dot1_keep (atPro V) main_v5 (by decide)).trans (Pro_src V)
theorem Dot1_dst : atDot1 V (Proc.devRef .tc main_v6) = Cert.Gcn.dstOf (V (Proc.devRef .tc main_arg1)) :=
  (dot1_keep (atPro V) main_v6 (by decide)).trans (Pro_dst V)
theorem Dot1_norm : atDot1 V (Proc.devRef .tc main_v30) = Cert.Gcn.normOf (Cert.Gcn.srcOf (V (Proc.devRef .tc main_arg1))) (Cert.Gcn.dstOf (V (Proc.devRef .tc main_arg1))) :=
  (dot1_keep (atPro V) main_v30 (by decide)).trans (Pro_norm V)
theorem Dot1_arg (b : Ref sig .tc) (hb : b ∈ [main_arg3, main_arg4, main_arg5, main_arg6, main_arg7, main_arg8, main_arg9]) : atDot1 V (Proc.devRef .tc b) = V (Proc.devRef .tc b) :=
  (dot1_keep (atPro V) b ((by decide : ∀ r ∈ [main_arg3, main_arg4, main_arg5, main_arg6, main_arg7, main_arg8, main_arg9], r ≠ main_v31) b hb)).trans (Pro_arg V b ((by decide : ∀ r ∈ [main_arg3, main_arg4, main_arg5, main_arg6, main_arg7, main_arg8, main_arg9], r ∈ [main_arg0, main_arg2, main_arg3, main_arg4, main_arg5, main_arg6, main_arg7, main_arg8, main_arg9]) b hb))
/-- The first product is `mm128` of the features and the first weight. -/
theorem Dot1_val : atDot1 V (Proc.devRef .tc main_v31) = Cert.Gcn.mm128 (V (Proc.devRef .tc main_arg0)) (V (Proc.devRef .tc main_arg2)) := by
  refine (dot1_out (atPro V)).trans ?_
  rw [Pro_arg V main_arg0 (by decide), Pro_arg V main_arg2 (by decide)]

theorem Act1_src : atAct1 V (Proc.devRef .tc main_v5) = Cert.Gcn.srcOf (V (Proc.devRef .tc main_arg1)) :=
  (layer1_keep_of (atDot1 V) main_v5 (by decide) (by decide)).trans (Dot1_src V)
theorem Act1_dst : atAct1 V (Proc.devRef .tc main_v6) = Cert.Gcn.dstOf (V (Proc.devRef .tc main_arg1)) :=
  (layer1_keep_of (atDot1 V) main_v6 (by decide) (by decide)).trans (Dot1_dst V)
theorem Act1_norm : atAct1 V (Proc.devRef .tc main_v30) = Cert.Gcn.normOf (Cert.Gcn.srcOf (V (Proc.devRef .tc main_arg1))) (Cert.Gcn.dstOf (V (Proc.devRef .tc main_arg1))) :=
  (layer1_keep_of (atDot1 V) main_v30 (by decide) (by decide)).trans (Dot1_norm V)
theorem Act1_arg (b : Ref sig .tc) (hb : b ∈ [main_arg4, main_arg5, main_arg6, main_arg7, main_arg8, main_arg9]) : atAct1 V (Proc.devRef .tc b) = V (Proc.devRef .tc b) :=
  (layer1_keep_of (atDot1 V) b ((by decide : ∀ r ∈ [main_arg4, main_arg5, main_arg6, main_arg7, main_arg8, main_arg9], r ∉ written1) b hb) ((by decide : ∀ r ∈ [main_arg4, main_arg5, main_arg6, main_arg7, main_arg8, main_arg9], r ∉ written1_1) b hb)).trans (Dot1_arg V b ((by decide : ∀ r ∈ [main_arg4, main_arg5, main_arg6, main_arg7, main_arg8, main_arg9], r ∈ [main_arg3, main_arg4, main_arg5, main_arg6, main_arg7, main_arg8, main_arg9]) b hb))
/-- The activations after layer 1. -/
theorem Act1_val : atAct1 V (Proc.devRef .tc main_v48) = Cert.Gcn.act1 (V (Proc.devRef .tc main_arg0)) (V (Proc.devRef .tc main_arg1)) (V (Proc.devRef .tc main_arg2)) (V (Proc.devRef .tc main_arg3)) := by
  refine (layer1_out (atDot1 V)).trans ?_
  rw [Dot1_src, Dot1_dst, Dot1_norm, Dot1_val, Dot1_arg V main_arg3 (by decide)]
  rfl

/-! ## Layer 2 -/

theorem Dot2_src : atDot2 V (Proc.devRef .tc main_v5) = Cert.Gcn.srcOf (V (Proc.devRef .tc main_arg1)) :=
  (dot2_keep (atAct1 V) main_v5 (by decide)).trans (Act1_src V)
theorem Dot2_dst : atDot2 V (Proc.devRef .tc main_v6) = Cert.Gcn.dstOf (V (Proc.devRef .tc main_arg1)) :=
  (dot2_keep (atAct1 V) main_v6 (by decide)).trans (Act1_dst V)
theorem Dot2_norm : atDot2 V (Proc.devRef .tc main_v30) = Cert.Gcn.normOf (Cert.Gcn.srcOf (V (Proc.devRef .tc main_arg1))) (Cert.Gcn.dstOf (V (Proc.devRef .tc main_arg1))) :=
  (dot2_keep (atAct1 V) main_v30 (by decide)).trans (Act1_norm V)
theorem Dot2_arg (b : Ref sig .tc) (hb : b ∈ [main_arg5, main_arg6, main_arg7, main_arg8, main_arg9]) : atDot2 V (Proc.devRef .tc b) = V (Proc.devRef .tc b) :=
  (dot2_keep (atAct1 V) b ((by decide : ∀ r ∈ [main_arg5, main_arg6, main_arg7, main_arg8, main_arg9], r ≠ main_v49) b hb)).trans (Act1_arg V b ((by decide : ∀ r ∈ [main_arg5, main_arg6, main_arg7, main_arg8, main_arg9], r ∈ [main_arg4, main_arg5, main_arg6, main_arg7, main_arg8, main_arg9]) b hb))
/-- The second product is `mm128` of the first activations and the second weight. -/
theorem Dot2_val : atDot2 V (Proc.devRef .tc main_v49) = Cert.Gcn.mm128 (Cert.Gcn.act1 (V (Proc.devRef .tc main_arg0)) (V (Proc.devRef .tc main_arg1)) (V (Proc.devRef .tc main_arg2)) (V (Proc.devRef .tc main_arg3))) (V (Proc.devRef .tc main_arg4)) := by
  refine (dot2_out (atAct1 V)).trans ?_
  rw [Act1_val, Act1_arg V main_arg4 (by decide)]

theorem Act2_src : atAct2 V (Proc.devRef .tc main_v5) = Cert.Gcn.srcOf (V (Proc.devRef .tc main_arg1)) :=
  (layer2_keep_of (atDot2 V) main_v5 (by decide) (by decide)).trans (Dot2_src V)
theorem Act2_dst : atAct2 V (Proc.devRef .tc main_v6) = Cert.Gcn.dstOf (V (Proc.devRef .tc main_arg1)) :=
  (layer2_keep_of (atDot2 V) main_v6 (by decide) (by decide)).trans (Dot2_dst V)
theorem Act2_norm : atAct2 V (Proc.devRef .tc main_v30) = Cert.Gcn.normOf (Cert.Gcn.srcOf (V (Proc.devRef .tc main_arg1))) (Cert.Gcn.dstOf (V (Proc.devRef .tc main_arg1))) :=
  (layer2_keep_of (atDot2 V) main_v30 (by decide) (by decide)).trans (Dot2_norm V)
theorem Act2_arg (b : Ref sig .tc) (hb : b ∈ [main_arg6, main_arg7, main_arg8, main_arg9]) : atAct2 V (Proc.devRef .tc b) = V (Proc.devRef .tc b) :=
  (layer2_keep_of (atDot2 V) b ((by decide : ∀ r ∈ [main_arg6, main_arg7, main_arg8, main_arg9], r ∉ written2) b hb) ((by decide : ∀ r ∈ [main_arg6, main_arg7, main_arg8, main_arg9], r ∉ written2_1) b hb)).trans (Dot2_arg V b ((by decide : ∀ r ∈ [main_arg6, main_arg7, main_arg8, main_arg9], r ∈ [main_arg5, main_arg6, main_arg7, main_arg8, main_arg9]) b hb))
/-- The activations after layer 2. -/
theorem Act2_val : atAct2 V (Proc.devRef .tc main_v66) = Cert.Gcn.act2 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  refine (layer2_out (atDot2 V)).trans ?_
  rw [Dot2_src, Dot2_dst, Dot2_norm, Dot2_val, Dot2_arg V main_arg5 (by decide)]
  rfl

/-! ## Layer 3 -/

theorem Dot3_src : atDot3 V (Proc.devRef .tc main_v5) = Cert.Gcn.srcOf (V (Proc.devRef .tc main_arg1)) :=
  (dot3_keep (atAct2 V) main_v5 (by decide)).trans (Act2_src V)
theorem Dot3_dst : atDot3 V (Proc.devRef .tc main_v6) = Cert.Gcn.dstOf (V (Proc.devRef .tc main_arg1)) :=
  (dot3_keep (atAct2 V) main_v6 (by decide)).trans (Act2_dst V)
theorem Dot3_norm : atDot3 V (Proc.devRef .tc main_v30) = Cert.Gcn.normOf (Cert.Gcn.srcOf (V (Proc.devRef .tc main_arg1))) (Cert.Gcn.dstOf (V (Proc.devRef .tc main_arg1))) :=
  (dot3_keep (atAct2 V) main_v30 (by decide)).trans (Act2_norm V)
theorem Dot3_arg (b : Ref sig .tc) (hb : b ∈ [main_arg7, main_arg8, main_arg9]) : atDot3 V (Proc.devRef .tc b) = V (Proc.devRef .tc b) :=
  (dot3_keep (atAct2 V) b ((by decide : ∀ r ∈ [main_arg7, main_arg8, main_arg9], r ≠ main_v67) b hb)).trans (Act2_arg V b ((by decide : ∀ r ∈ [main_arg7, main_arg8, main_arg9], r ∈ [main_arg6, main_arg7, main_arg8, main_arg9]) b hb))
/-- The third product is `mm128` of the second activations and the third weight. -/
theorem Dot3_val : atDot3 V (Proc.devRef .tc main_v67) = Cert.Gcn.mm128 (Cert.Gcn.act2 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6)) := by
  refine (dot3_out (atAct2 V)).trans ?_
  rw [Act2_val, Act2_arg V main_arg6 (by decide)]

theorem Act3_arg (b : Ref sig .tc) (hb : b ∈ [main_arg8, main_arg9]) : atAct3 V (Proc.devRef .tc b) = V (Proc.devRef .tc b) :=
  (layer3_keep_of (atDot3 V) b ((by decide : ∀ r ∈ [main_arg8, main_arg9], r ∉ written3) b hb) ((by decide : ∀ r ∈ [main_arg8, main_arg9], r ∉ written3_1) b hb)).trans (Dot3_arg V b ((by decide : ∀ r ∈ [main_arg8, main_arg9], r ∈ [main_arg7, main_arg8, main_arg9]) b hb))
/-- The activations after layer 3. -/
theorem Act3_val : atAct3 V (Proc.devRef .tc main_v84) = Cert.Gcn.act3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  refine (layer3_out (atDot3 V)).trans ?_
  rw [Dot3_src, Dot3_dst, Dot3_norm, Dot3_val, Dot3_arg V main_arg7 (by decide)]
  rfl

/-! ## The output -/

theorem Dot4_arg (b : Ref sig .tc) (hb : b ∈ [main_arg9]) : atDot4 V (Proc.devRef .tc b) = V (Proc.devRef .tc b) :=
  (dot4_keep (atAct3 V) b ((by decide : ∀ r ∈ [main_arg9], r ≠ main_v85) b hb)).trans (Act3_arg V b ((by decide : ∀ r ∈ [main_arg9], r ∈ [main_arg8, main_arg9]) b hb))
/-- The output product is `mm40` of the third activations and the output weight. -/
theorem Dot4_val : atDot4 V (Proc.devRef .tc main_v85) = Cert.Gcn.mm40 (Cert.Gcn.act3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (V (Proc.devRef .tc main_arg8)) := by
  refine (dot4_out (atAct3 V)).trans ?_
  rw [Act3_val, Act3_arg V main_arg8 (by decide)]

/-- The result buffer at the end of the line is the network's output. -/
theorem End_val : atEnd V (Proc.devRef .tc main_v88) = Cert.Gcn.gcn (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  refine (head_out (atDot4 V)).trans ?_
  rw [Dot4_val, Dot4_arg V main_arg9 (by decide)]
  rfl

/-! ## The arguments pass through the whole line -/

/-- No stretch writes an argument. -/
theorem arg_through (b : Ref sig .tc) (hb : b ∈ [main_arg0, main_arg1, main_arg2, main_arg3, main_arg4, main_arg5, main_arg6, main_arg7, main_arg8, main_arg9]) :
    after (ops (F := F)) V (Proc.devRef .tc b) = V (Proc.devRef .tc b) := by
  rw [ops_eq]
  exact (keep4 (atDot4 V) b ((by decide : ∀ r ∈ [main_arg0, main_arg1, main_arg2, main_arg3, main_arg4, main_arg5, main_arg6, main_arg7, main_arg8, main_arg9], r ∉ written4) b hb)).trans
    ((dot4_keep (atAct3 V) b ((by decide : ∀ r ∈ [main_arg0, main_arg1, main_arg2, main_arg3, main_arg4, main_arg5, main_arg6, main_arg7, main_arg8, main_arg9], r ≠ main_v85) b hb)).trans
    ((layer3_keep_of (atDot3 V) b ((by decide : ∀ r ∈ [main_arg0, main_arg1, main_arg2, main_arg3, main_arg4, main_arg5, main_arg6, main_arg7, main_arg8, main_arg9], r ∉ written3) b hb) ((by decide : ∀ r ∈ [main_arg0, main_arg1, main_arg2, main_arg3, main_arg4, main_arg5, main_arg6, main_arg7, main_arg8, main_arg9], r ∉ written3_1) b hb)).trans
    ((dot3_keep (atAct2 V) b ((by decide : ∀ r ∈ [main_arg0, main_arg1, main_arg2, main_arg3, main_arg4, main_arg5, main_arg6, main_arg7, main_arg8, main_arg9], r ≠ main_v67) b hb)).trans
    ((layer2_keep_of (atDot2 V) b ((by decide : ∀ r ∈ [main_arg0, main_arg1, main_arg2, main_arg3, main_arg4, main_arg5, main_arg6, main_arg7, main_arg8, main_arg9], r ∉ written2) b hb) ((by decide : ∀ r ∈ [main_arg0, main_arg1, main_arg2, main_arg3, main_arg4, main_arg5, main_arg6, main_arg7, main_arg8, main_arg9], r ∉ written2_1) b hb)).trans
    ((dot2_keep (atAct1 V) b ((by decide : ∀ r ∈ [main_arg0, main_arg1, main_arg2, main_arg3, main_arg4, main_arg5, main_arg6, main_arg7, main_arg8, main_arg9], r ≠ main_v49) b hb)).trans
    ((layer1_keep_of (atDot1 V) b ((by decide : ∀ r ∈ [main_arg0, main_arg1, main_arg2, main_arg3, main_arg4, main_arg5, main_arg6, main_arg7, main_arg8, main_arg9], r ∉ written1) b hb) ((by decide : ∀ r ∈ [main_arg0, main_arg1, main_arg2, main_arg3, main_arg4, main_arg5, main_arg6, main_arg7, main_arg8, main_arg9], r ∉ written1_1) b hb)).trans
    ((dot1_keep (atPro V) b ((by decide : ∀ r ∈ [main_arg0, main_arg1, main_arg2, main_arg3, main_arg4, main_arg5, main_arg6, main_arg7, main_arg8, main_arg9], r ≠ main_v31) b hb)).trans
    (pro_keep_of V b ((by decide : ∀ r ∈ [main_arg0, main_arg1, main_arg2, main_arg3, main_arg4, main_arg5, main_arg6, main_arg7, main_arg8, main_arg9], r ∉ written0) b hb) ((by decide : ∀ r ∈ [main_arg0, main_arg1, main_arg2, main_arg3, main_arg4, main_arg5, main_arg6, main_arg7, main_arg8, main_arg9], r ∉ written0_1) b hb) ((by decide : ∀ r ∈ [main_arg0, main_arg1, main_arg2, main_arg3, main_arg4, main_arg5, main_arg6, main_arg7, main_arg8, main_arg9], r ∉ written0_2) b hb)))))))))

/-! ## From the launch memory -/

variable (m : (ℓ : Loc nD τ sig) → Buf (Elt F) ℓ) (c : Dev nD)

/-- THE REFERENCE'S RESULT: the buffer the line ends in holds the network's output at the launch's arguments. -/
theorem result_eq : after (ops (F := F)) (launchContents m c) (Proc.devRef .tc main_v88)
    = Cert.Gcn.gcn (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9)) :=
  (congrFun (ops_eq (launchContents m c)) _).trans (End_val (launchContents m c))

/-- Argument 0 ends as launched. -/
theorem arg_kept0 : after (ops (F := F)) (launchContents m c) (Proc.devRef .tc main_arg0) = m ((c.tc : Thread nD τ).loc main_arg0) :=
  arg_through (launchContents m c) main_arg0 (by decide)
/-- Argument 1 ends as launched. -/
theorem arg_kept1 : after (ops (F := F)) (launchContents m c) (Proc.devRef .tc main_arg1) = m ((c.tc : Thread nD τ).loc main_arg1) :=
  arg_through (launchContents m c) main_arg1 (by decide)
/-- Argument 2 ends as launched. -/
theorem arg_kept2 : after (ops (F := F)) (launchContents m c) (Proc.devRef .tc main_arg2) = m ((c.tc : Thread nD τ).loc main_arg2) :=
  arg_through (launchContents m c) main_arg2 (by decide)
/-- Argument 3 ends as launched. -/
theorem arg_kept3 : after (ops (F := F)) (launchContents m c) (Proc.devRef .tc main_arg3) = m ((c.tc : Thread nD τ).loc main_arg3) :=
  arg_through (launchContents m c) main_arg3 (by decide)
/-- Argument 4 ends as launched. -/
theorem arg_kept4 : after (ops (F := F)) (launchContents m c) (Proc.devRef .tc main_arg4) = m ((c.tc : Thread nD τ).loc main_arg4) :=
  arg_through (launchContents m c) main_arg4 (by decide)
/-- Argument 5 ends as launched. -/
theorem arg_kept5 : after (ops (F := F)) (launchContents m c) (Proc.devRef .tc main_arg5) = m ((c.tc : Thread nD τ).loc main_arg5) :=
  arg_through (launchContents m c) main_arg5 (by decide)
/-- Argument 6 ends as launched. -/
theorem arg_kept6 : after (ops (F := F)) (launchContents m c) (Proc.devRef .tc main_arg6) = m ((c.tc : Thread nD τ).loc main_arg6) :=
  arg_through (launchContents m c) main_arg6 (by decide)
/-- Argument 7 ends as launched. -/
theorem arg_kept7 : after (ops (F := F)) (launchContents m c) (Proc.devRef .tc main_arg7) = m ((c.tc : Thread nD τ).loc main_arg7) :=
  arg_through (launchContents m c) main_arg7 (by decide)
/-- Argument 8 ends as launched. -/
theorem arg_kept8 : after (ops (F := F)) (launchContents m c) (Proc.devRef .tc main_arg8) = m ((c.tc : Thread nD τ).loc main_arg8) :=
  arg_through (launchContents m c) main_arg8 (by decide)
/-- Argument 9 ends as launched. -/
theorem arg_kept9 : after (ops (F := F)) (launchContents m c) (Proc.devRef .tc main_arg9) = m ((c.tc : Thread nD τ).loc main_arg9) :=
  arg_through (launchContents m c) main_arg9 (by decide)

end Cert.Gcn.Ref

end
-- ==== Proof.lean ====
/-
  A three-layer graph-convolution network whose four dense products are Pallas matrix products, against the same
  network with `jnp` products: the two idealized programs compute one function of their arguments.

  Both programs build, from the edge list, the endpoint lists with a self-loop per node and the symmetric edge
  weights d(src)^(-1/2) · d(dst)^(-1/2); then three times: a dense product of the activations [50000, 128] with a
  weight [128, 128], the product's rows gathered at the edges' sources, scaled by the edge weights, added up at the
  destinations, a bias added, clamped below at 0; then a product with the output weight [128, 40] and a bias. They
  differ only in the four products. The kernel computes a product in five blocks of 10000 rows, each block the
  block's rows times the whole weight, the operands rounded to bfloat16 first and accumulated from zero in float32:
  on the extended reals a change of format is the identity and the accumulation from zero is the plain sum over
  the contracted index, so a block holds exactly the rows of the whole product, and the five blocks tile the array.
  The reference computes the product with one contraction over all rows. Every other operation is the same
  whole-array function on both sides (`Cert.Gcn`: `srcOf`, `dstOf`, `normOf`, `layer`, `head`), applied to equal
  arguments, so nothing about gathers, scatter-adds or the extended reals' arithmetic is needed, and the
  precondition (finite inputs) is never opened: the equality holds for every extended-real input.

  The three frames: the kernel programs' are the generated frame certificates; the reference's is its run with the
  result dropped. The idealization rewrote no operation, so `preserves` is trivial.
-/
import proofs.«174328_j51780125721472_1_alg».proof.Defs
import proofs.«174328_j51780125721472_1_alg».proof.Proof.Gen.Kernel
import proofs.«174328_j51780125721472_1_alg».proof.Proof.Gen.Kernel.Skeleton
import proofs.«174328_j51780125721472_1_alg».proof.Proof.Gen.Kernel.Launch
import proofs.«174328_j51780125721472_1_alg».proof.Proof.Gen.Kernel.Points
import proofs.«174328_j51780125721472_1_alg».proof.Proof.Gen.Kernel.Frame
import proofs.«174328_j51780125721472_1_alg».proof.Proof.Gen.KernelIdeal
import proofs.«174328_j51780125721472_1_alg».proof.Proof.Gen.KernelIdeal.Skeleton
import proofs.«174328_j51780125721472_1_alg».proof.Proof.Gen.KernelIdeal.Launch
import proofs.«174328_j51780125721472_1_alg».proof.Proof.Gen.KernelIdeal.Points
import proofs.«174328_j51780125721472_1_alg».proof.Proof.Gen.KernelIdeal.Frame
import proofs.«174328_j51780125721472_1_alg».proof.Proof.Gen.ReferenceIdeal
import proofs.«174328_j51780125721472_1_alg».proof.Proof.Gen.Pre_finite_inputs
import proofs.«174328_j51780125721472_1_alg».proof.Proof.KernelRun
import proofs.«174328_j51780125721472_1_alg».proof.Proof.KernelValue
import proofs.«174328_j51780125721472_1_alg».proof.Proof.RefRun
import proofs.«174328_j51780125721472_1_alg».proof.Proof.RefValue
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The reference runs and leaves its arguments unchanged: no operation writes an argument's buffer. -/
theorem frame_reference : Cert.frame_ReferenceIdeal := fun m ρ _ =>
  (θ_run Cert.ReferenceIdeal.defs _ _).mono (fun _ h c =>
      ⟨(h c Cert.ReferenceIdeal.main_arg0).trans (Cert.Gcn.Ref.arg_kept0 m c),
       (h c Cert.ReferenceIdeal.main_arg1).trans (Cert.Gcn.Ref.arg_kept1 m c),
       (h c Cert.ReferenceIdeal.main_arg2).trans (Cert.Gcn.Ref.arg_kept2 m c),
       (h c Cert.ReferenceIdeal.main_arg3).trans (Cert.Gcn.Ref.arg_kept3 m c),
       (h c Cert.ReferenceIdeal.main_arg4).trans (Cert.Gcn.Ref.arg_kept4 m c),
       (h c Cert.ReferenceIdeal.main_arg5).trans (Cert.Gcn.Ref.arg_kept5 m c),
       (h c Cert.ReferenceIdeal.main_arg6).trans (Cert.Gcn.Ref.arg_kept6 m c),
       (h c Cert.ReferenceIdeal.main_arg7).trans (Cert.Gcn.Ref.arg_kept7 m c),
       (h c Cert.ReferenceIdeal.main_arg8).trans (Cert.Gcn.Ref.arg_kept8 m c),
       (h c Cert.ReferenceIdeal.main_arg9).trans (Cert.Gcn.Ref.arg_kept9 m c)⟩)
    (Cert.ReferenceIdeal.Hand.raw_run (F := Ideal) m ρ)

/-- The ideal pass rewrote no operation. -/
theorem preserves : Cert.preserves_Kernel_KernelIdeal := trivial

/-- Both idealized programs end with the network `gcn` of the (agreeing) argument arrays in their result buffer. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.Gcn.Kernel.b14_v88 m ρ c), (h c).2⟩)
      (Cert.KernelIdeal.Named.run_main (F := Ideal) m ρ)
  · refine (θ_run Cert.ReferenceIdeal.defs _ _).mono (fun _ h c =>
      ⟨?_, (h c Cert.ReferenceIdeal.main_arg0).trans (Cert.Gcn.Ref.arg_kept0 m' c),
       (h c Cert.ReferenceIdeal.main_arg1).trans (Cert.Gcn.Ref.arg_kept1 m' c),
       (h c Cert.ReferenceIdeal.main_arg2).trans (Cert.Gcn.Ref.arg_kept2 m' c),
       (h c Cert.ReferenceIdeal.main_arg3).trans (Cert.Gcn.Ref.arg_kept3 m' c),
       (h c Cert.ReferenceIdeal.main_arg4).trans (Cert.Gcn.Ref.arg_kept4 m' c),
       (h c Cert.ReferenceIdeal.main_arg5).trans (Cert.Gcn.Ref.arg_kept5 m' c),
       (h c Cert.ReferenceIdeal.main_arg6).trans (Cert.Gcn.Ref.arg_kept6 m' c),
       (h c Cert.ReferenceIdeal.main_arg7).trans (Cert.Gcn.Ref.arg_kept7 m' c),
       (h c Cert.ReferenceIdeal.main_arg8).trans (Cert.Gcn.Ref.arg_kept8 m' c),
       (h c Cert.ReferenceIdeal.main_arg9).trans (Cert.Gcn.Ref.arg_kept9 m' c)⟩)
      (Cert.ReferenceIdeal.Hand.raw_run (F := Ideal) m' ρ')
    refine (h c Cert.ReferenceIdeal.main_v88).trans ((Cert.Gcn.Ref.result_eq m' c).trans ?_)
    obtain ⟨e0, e1, e2, e3, e4, e5, e6, e7, e8, e9⟩ := hagree c
    rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
